-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) (main_arg1 : IVec S512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1x1 : Shape := ⟨2, ![1, 1]⟩
abbrev S8x512 : Shape := ⟨2, ![8, 512]⟩
abbrev S8x1 : Shape := ⟨2, ![8, 1]⟩
abbrev S8 : Shape := ⟨1, ![8]⟩
abbrev S8x512x1 : Shape := ⟨3, ![8, 512, 1]⟩
abbrev S8x1x512 : Shape := ⟨3, ![8, 1, 512]⟩
abbrev S8x512x512 : Shape := ⟨3, ![8, 512, 512]⟩
abbrev S1 : Shape := ⟨1, ![1]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512x1, .i32⟩
  | .hbm, ⟨3, _⟩ => ⟨S1x512, .i32⟩
  | .hbm, ⟨4, _⟩ => ⟨S1x1, .f32⟩
  | .hbm, ⟨5, _⟩ => ⟨S_, .f32⟩
  | .local _ .vmem, ⟨0, _⟩ => ⟨S8x512, .f32⟩
  | .local _ .vmem, ⟨1, _⟩ => ⟨S8x512, .f32⟩
  | .local _ .vmem, ⟨2, _⟩ => ⟨S8x1, .i32⟩
  | .local _ .vmem, ⟨3, _⟩ => ⟨S8x1, .i32⟩
  | .local _ .vmem, ⟨4, _⟩ => ⟨S1x512, .i32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v85 : BitVec 1 := Scalar.cmpi .eq arg0 c63_i32
  let v86 : BitVec 32 := Scalar.extui v85
  let c0_i32_25 : BitVec 32 := 0#32
  let v87 : BitVec 1 := Scalar.cmpi .ne v86 c0_i32_25
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S512_S512x1 : S512.ShapeCasts S512x1
  shapeCasts_S512_S1x512 : S512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x512_S8x512_0_0 : ∀ a, (![0, 0] : Fin 2 → Nat) a + S8x512.size a ≤ S8x512.size a
  h_S8x512 : 0 < S8x512.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S8x1_S8x512 : S8x1.Broadcasts S8x512
  broadcasts_S1x512_S8x512 : S1x512.Broadcasts S8x512
  natLt_1_32 : 1 < 32
  reduces_S8x512_S8 : S8x512.Reduces [1] S8
  shapeCasts_S8_S8x1 : S8.ShapeCasts S8x1
  shapeCasts_S8x512_S8x512x1 : S8x512.ShapeCasts S8x512x1
  shapeCasts_S8x512_S8x1x512 : S8x512.ShapeCasts S8x1x512
  broadcasts_S8x1x512_S8x512x512 : S8x1x512.Broadcasts S8x512x512
  broadcasts_S8x512x1_S8x512x512 : S8x512x1.Broadcasts S8x512x512
  reduces_S8x512x512_S8x512 : S8x512x512.Reduces [2] S8x512
  iota_S8x512_d0_w32 : S8x512.Iotas .tc 32 [0]
  iota_S8x512_d1_w32 : S8x512.Iotas .tc 32 [1]
  reduces_S8x1_S1 : S8x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S512x512.size a
  hwx0_0 : ∀ i : grid0.Coords, EltTy.bits .f32 = 32 ∨ (Rect.block (s := S512x512) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1.size a ≤ S512x1.size a
  hwx0_1 : ∀ i : grid0.Coords, EltTy.bits .i32 = 32 ∨ (Rect.block (s := S512x1) S8x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .i32 = 32 ∨ (Rect.block (s := S1x512) S1x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1x512x1x512 : Shape := ⟨4, ![1, 512, 1, 512]⟩
abbrev S512x512x1x512 : Shape := ⟨4, ![512, 512, 1, 512]⟩
abbrev S262144x512 : Shape := ⟨2, ![262144, 512]⟩
abbrev S262144x1 : Shape := ⟨2, ![262144, 1]⟩
abbrev S_ : Shape := ⟨0, ![]⟩
abbrev S262144 : Shape := ⟨1, ![262144]⟩
abbrev S1x512x1x1 : Shape := ⟨4, ![1, 512, 1, 1]⟩
abbrev S1x512x512x1 : Shape := ⟨4, ![1, 512, 512, 1]⟩

abbrev nBuf : Space → Nat
  | .hbm => 80
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512x1, .i32⟩
  | .hbm, ⟨3, _⟩ => ⟨S1x512, .i32⟩
  | .hbm, ⟨4, _⟩ => ⟨S512x512, .i32⟩
  | .hbm, ⟨5, _⟩ => ⟨S512x512, .i32⟩
  | .hbm, ⟨6, _⟩ => ⟨S512x512, .i1⟩
  | .hbm, ⟨7, _⟩ => ⟨S512x512, .i1⟩
  | .hbm, ⟨8, _⟩ => ⟨S1x512x1x512, .f32⟩
  | .hbm, ⟨9, _⟩ => ⟨S512x512x1x512, .f32⟩
  | .hbm, ⟨10, _⟩ => ⟨S262144x512, .f32⟩
  | .hbm, ⟨11, _⟩ => ⟨S1x512x1x512, .i1⟩
  | .hbm, ⟨12, _⟩ => ⟨S512x512x1x512, .i1⟩
  | .hbm, ⟨13, _⟩ => ⟨S262144x512, .i1⟩
  | .hbm, ⟨14, _⟩ => ⟨S512x512, .f32⟩
  | .hbm, ⟨15, _⟩ => ⟨S262144x1, .f32⟩
  | .hbm, ⟨16, _⟩ => ⟨S262144x512, .f32⟩
  | .hbm, ⟨17, _⟩ => ⟨S262144x512, .i1⟩
  | .hbm, ⟨18, _⟩ => ⟨S262144x512, .i1⟩
  | .hbm, ⟨19, _⟩ => ⟨S262144x512, .f32⟩
  | .hbm, ⟨20, _⟩ => ⟨S_, .f32⟩
  | .hbm, ⟨21, _⟩ => ⟨S262144, .f32⟩
  | .hbm, ⟨22, _⟩ => ⟨S262144x1, .f32⟩
  | .hbm, ⟨23, _⟩ => ⟨S_, .f32⟩
  | .hbm, ⟨24, _⟩ => ⟨S262144x1, .f32⟩
  | .hbm, ⟨25, _⟩ => ⟨S262144x1, .i1⟩
  | .hbm, ⟨26, _⟩ => ⟨S512x512, .i1⟩
  | .hbm, ⟨27, _⟩ => ⟨S512x512, .i1⟩
  | .hbm, ⟨28, _⟩ => ⟨S512x512, .f32⟩
  | .hbm, ⟨29, _⟩ => ⟨S262144x512, .f32⟩
  | .hbm, ⟨30, _⟩ => ⟨S_, .f32⟩
  | .hbm, ⟨31, _⟩ => ⟨S262144, .f32⟩
  | .hbm, ⟨32, _⟩ => ⟨S262144x1, .f32⟩
  | .hbm, ⟨33, _⟩ => ⟨S262144x512, .f32⟩
  | .hbm, ⟨34, _⟩ => ⟨S262144x512, .f32⟩
  | .hbm, ⟨35, _⟩ => ⟨S262144x512, .f32⟩
  | .hbm, ⟨36, _⟩ => ⟨S_, .f32⟩
  | .hbm, ⟨37, _⟩ => ⟨S262144, .f32⟩
  | .hbm, ⟨38, _⟩ => ⟨S262144x1, .f32⟩
  | .hbm, ⟨39, _⟩ => ⟨S262144x1, .f32⟩
  | .hbm, ⟨40, _⟩ => ⟨S512x512, .f32⟩
  | .hbm, ⟨41, _⟩ => ⟨S512x512, .f32⟩
  | .hbm, ⟨42, _⟩ => ⟨S_, .f32⟩
  | .hbm, ⟨43, _⟩ => ⟨S512, .f32⟩
  | .hbm, ⟨44, _⟩ => ⟨S512x1, .f32⟩
  | .hbm, ⟨45, _⟩ => ⟨S512x512, .f32⟩
  | .hbm, ⟨46, _⟩ => ⟨S512x512, .f32⟩
  | .hbm, ⟨47, _⟩ => ⟨S512x512, .f32⟩
  | .hbm, ⟨48, _⟩ => ⟨S_, .f32⟩
  | .hbm, ⟨49, _⟩ => ⟨S512, .f32⟩
  | .hbm, ⟨50, _⟩ => ⟨S512x1, .f32⟩
  | .hbm, ⟨51, _⟩ => ⟨S512x1, .f32⟩
  | .hbm, ⟨52, _⟩ => ⟨S1x512x1x1, .f32⟩
  | .hbm, ⟨53, _⟩ => ⟨S1x512x512x1, .f32⟩
  | .hbm, ⟨54, _⟩ => ⟨S512x512, .f32⟩
  | .hbm, ⟨55, _⟩ => ⟨S512x512, .f32⟩
  | .hbm, ⟨56, _⟩ => ⟨S_, .f32⟩
  | .hbm, ⟨57, _⟩ => ⟨S512x512, .f32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S512x512, .i32⟩
  | .hbm, ⟨62, _⟩ => ⟨S512x512, .i32⟩
  | .hbm, ⟨63, _⟩ => ⟨S_, .i32⟩
  | .hbm, ⟨64, _⟩ => ⟨S512x512, .i32⟩
  | .hbm, ⟨65, _⟩ => ⟨S512x512, .i32⟩
  | .hbm, ⟨66, _⟩ => ⟨S512x512, .i1⟩
  | .hbm, ⟨67, _⟩ => ⟨S512x512, .f32⟩
  | .hbm, ⟨68, _⟩ => ⟨S512x512, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S512x512, .f32⟩
  | .hbm, ⟨74, _⟩ => ⟨S_, .f32⟩
  | .hbm, ⟨75, _⟩ => ⟨S512x512, .f32⟩
  | .hbm, ⟨76, _⟩ => ⟨S512x512, .f32⟩
  | .hbm, ⟨77, _⟩ => ⟨S_, .f32⟩
  | .hbm, ⟨78, _⟩ => ⟨S_, .f32⟩
  | .hbm, ⟨79, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_3 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_4 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_5 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_c : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_6 : Ref sig .tc := ⟨.hbm, 69, rfl⟩
abbrev main_v59 : Ref sig .tc := ⟨.hbm, 70, rfl⟩
abbrev main_cst_7 : Ref sig .tc := ⟨.hbm, 71, rfl⟩
abbrev main_v60 : Ref sig .tc := ⟨.hbm, 72, rfl⟩
abbrev main_v61 : Ref sig .tc := ⟨.hbm, 73, rfl⟩
abbrev main_cst_8 : Ref sig .tc := ⟨.hbm, 74, rfl⟩
abbrev main_v62 : Ref sig .tc := ⟨.hbm, 75, rfl⟩
abbrev main_v63 : Ref sig .tc := ⟨.hbm, 76, rfl⟩
abbrev main_cst_9 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  transposes_S512x1_S1x512_1_0 : S512x1.Transposes [1, 0] S1x512
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  shapeCasts_S512x512_S1x512x1x512 : S512x512.ShapeCasts S1x512x1x512
  bcast_S1x512x1x512_S512x512x1x512_0_1_2_3 : S1x512x1x512.BroadcastsInDim S512x512x1x512 (![0, 1, 2, 3] : Fin 4 → Fin S512x512x1x512.rank)
  shapeCasts_S512x512x1x512_S262144x512 : S512x512x1x512.ShapeCasts S262144x512
  transposes_S512x512_S512x512_1_0 : S512x512.Transposes [1, 0] S512x512
  shapeCasts_S512x512_S262144x1 : S512x512.ShapeCasts S262144x1
  bcast_S262144x1_S262144x512_0_1 : S262144x1.BroadcastsInDim S262144x512 (![0, 1] : Fin 2 → Fin S262144x512.rank)
  reducesTo_S262144x512_S262144_d1 : S262144x512.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  shapeCasts_S262144x1_S512x512 : S262144x1.ShapeCasts S512x512
  reducesTo_S512x512_S512_d1 : S512x512.ReducesTo [1] S512
  shapeCasts_S512x1_S1x512x1x1 : S512x1.ShapeCasts S1x512x1x1
  bcast_S1x512x1x1_S1x512x512x1_0_1_2_3 : S1x512x1x1.BroadcastsInDim S1x512x512x1 (![0, 1, 2, 3] : Fin 4 → Fin S1x512x512x1.rank)
  shapeCasts_S1x512x512x1_S512x512 : S1x512x512x1.ShapeCasts S512x512
  bcast_S_S512x512 : S_.BroadcastsInDim S512x512 (![] : Fin 0 → Fin S512x512.rank)
  reducesTo_S512x512_S_d0_1 : S512x512.ReducesTo [0, 1] S_

variable [Facts₀]

class Facts : Prop extends Facts₀ where

variable [Facts]
-- ==== Proof.Spec.lean ====
/-
  The semi-hard triplet loss as one function of a distance matrix and a label vector, on the extended reals.

  For an anchor row `j` with distances `d k = D j k` and label `lj`, and a column `c` (the candidate positive):
  * `other lj L k` is 1 when `k` carries another label than the anchor, else 0;
  * `mask d lj L c k` is 1 when moreover `k` lies farther from the anchor than `c` does;
  * `outside` is the least such farther distance (a minimum of `(d k - rowMax) * mask`, shifted back by `rowMax`),
    `inside` the greatest distance to another label (a maximum of `(d k - rowMin) * other`, shifted back by `rowMin`);
  * the semi-hard negative is `outside` when some `k` is in the mask (the mask's sum is positive), else `inside`;
  * `positive` is 1 on the pairs of one label off the diagonal (it is `[lj = L c] - [j = c]`);
  * the hinge term is `max ((1 + d c - semiHard) * positive) 0`, and the loss is the sum of the hinge terms over all
    pairs divided by `max (number of positive pairs) 1`.
  Both programs compute exactly these terms; they differ in how the arrays are laid out and in the order of the sums.
-/
import Idealize.ShloMosaic.PureOps.Ideal
import Idealize.ShloMosaic.Lib.ValueIdx

noncomputable section

open scoped BigOperators

namespace Cert.Triplet

open Idealize.ShloMosaic

/-- The extended reals, as the values of an f32 array at the ideal instance. -/
abbrev R : Type := Ideal .f32

/-- The greatest entry of a row, from -∞. -/
def rowMax (d : Fin 512 → R) : R :=
  (Finset.univ : Finset (Fin 512)).fold max (FloatOps.ofBits .f32 0xFF800000#32) d

/-- The least entry of a row, from +∞. -/
def rowMin (d : Fin 512 → R) : R :=
  (Finset.univ : Finset (Fin 512)).fold min (FloatOps.ofBits .f32 0x7F800000#32) d

/-- 1 when `k`'s label differs from the anchor's, else 0. -/
def other (lj : BitVec 32) (L : Fin 512 → BitVec 32) (k : Fin 512) : R :=
  FloatOps.uitofp .f32 (IntOp.cmpi .ne lj (L k))

/-- The greatest distance from the anchor to a point of another label. -/
def inside (d : Fin 512 → R) (lj : BitVec 32) (L : Fin 512 → BitVec 32) : R :=
  (Finset.univ : Finset (Fin 512)).fold max (FloatOps.ofBits .f32 0xFF800000#32)
    (fun k => (d k - rowMin d) * other lj L k) + rowMin d

/-- 1 when `k` has another label than the anchor and lies farther from it than `c`, else 0. -/
def mask (d : Fin 512 → R) (lj : BitVec 32) (L : Fin 512 → BitVec 32) (c k : Fin 512) : R :=
  FloatOps.uitofp .f32 (FloatOps.cmpf .ogt (d k) (d c)) * other lj L k

/-- The least distance, among the points in the mask, from the anchor. -/
def outside (d : Fin 512 → R) (lj : BitVec 32) (L : Fin 512 → BitVec 32) (c : Fin 512) : R :=
  (Finset.univ : Finset (Fin 512)).fold min (FloatOps.ofBits .f32 0x7F800000#32)
    (fun k => (d k - rowMax d) * mask d lj L c k) + rowMax d

/-- Whether the mask of `c` holds a point at all: its sum is positive. -/
def hasOutside (d : Fin 512 → R) (lj : BitVec 32) (L : Fin 512 → BitVec 32) (c : Fin 512) : BitVec 1 :=
  FloatOps.cmpf .ogt (∑ k : Fin 512, mask d lj L c k) (FloatOps.ofBits .f32 0x00000000#32)

/-- The semi-hard negative's distance. -/
def semiHard (d : Fin 512 → R) (lj : BitVec 32) (L : Fin 512 → BitVec 32) (c : Fin 512) : R :=
  Scalar.select (hasOutside d lj L c) (outside d lj L c) (inside d lj L)

/-- 1 on a pair of one label off the diagonal: `[lj = L c] - [j = c]`, the row and column numbers compared as words. -/
def positive (lj : BitVec 32) (L : Fin 512 → BitVec 32) (j : ℕ) (c : Fin 512) : R :=
  FloatOps.uitofp .f32 (IntOp.cmpi .eq lj (L c))
    - FloatOps.uitofp .f32 (IntOp.cmpi .eq (BitVec.ofNat 32 j) (BitVec.ofNat 32 c.val))

/-- The hinge term of the pair (anchor `j`, positive `c`). -/
def hinge (d : Fin 512 → R) (lj : BitVec 32) (L : Fin 512 → BitVec 32) (j : ℕ) (c : Fin 512) : R :=
  max ((FloatOps.ofBits .f32 0x3F800000#32 + d c - semiHard d lj L c) * positive lj L j c)
    (FloatOps.ofBits .f32 0x00000000#32)

/-- The sum of the hinge terms of row `j`. -/
def rowHinge (D : Fin 512 → Fin 512 → R) (L : Fin 512 → BitVec 32) (j : Fin 512) : R :=
  ∑ c : Fin 512, hinge (D j) (L j) L j.val c

/-- The number of positive pairs of row `j`. -/
def rowPositive (L : Fin 512 → BitVec 32) (j : Fin 512) : R :=
  ∑ c : Fin 512, positive (L j) L j.val c

/-- The loss: the hinge terms' sum over the number of positive pairs, at least 1. -/
def loss (D : Fin 512 → Fin 512 → R) (L : Fin 512 → BitVec 32) : R :=
  Ideal.div (∑ j : Fin 512, rowHinge D L j)
    (max (∑ j : Fin 512, rowPositive L j) (FloatOps.ofBits .f32 0x3F800000#32 : R))

end Cert.Triplet

end
-- ==== Proof.RefStages.lean ====
/-
  The reference program computes the semi-hard triplet loss of Spec.lean, read one stage at a time.

  The reference tiles the distance matrix over all pairs (anchor `j`, candidate positive `c`): row `c * 512 + j` of the
  tiled arrays belongs to the pair, and its column `k` runs over the candidate negatives. On that row
  * the tiled distances read `D j k`, the transposed distances, flattened to a column and broadcast, read `D j c`;
  * the mask bit is "the labels of `j` and `k` differ" and "`D j k > D j c`"; as a number the conjunction of two bits is the
    product of the two bits, and the complement of "equal" is "different", which gives Spec's `mask`;
  * the row's sum of the mask, its maximum of the distances and its minimum of the shifted masked distances are Spec's
    sums and folds over `k`, a reduction along one axis being the fold over that axis's coordinate;
  * reshaping the column of row results to a square and transposing it puts the pair's value at `(j, c)`.
  The quantities that depend on the anchor alone (the row's minimum, the greatest distance to another label) are computed
  on the square matrix and repeated along the row. From there every stage is pointwise at `(j, c)`, in the order Spec.lean
  writes it, and the two total sums are double sums over `j` and `c`; an initial value of zero adds nothing.
-/
import proofs.«119727_j61426622267462_1_alg».proof.Proof.RefRead
import proofs.«119727_j61426622267462_1_alg».proof.Proof.Spec
import Idealize.ShloMosaic.Lib.ValueIdx
import Idealize.ShloMosaic.PureOps.Ideal.Laws

noncomputable section

open scoped BigOperators

namespace Cert.Triplet.Ref

open Idealize.ShloMosaic Idealize.ShloMosaic.ValueIdx Cert.ReferenceIdeal Cert.ReferenceIdeal.Read Cert.Triplet

variable (D : (⟨S512x512, .f32⟩ : BufTy).Contents (Elt Ideal)) (L : (⟨S512, .i32⟩ : BufTy).Contents (Elt Ideal))

/-! ## Words -/

/-- The complement of "equal" is "different". -/
theorem not_cmpi_eq (x y : BitVec 32) : ~~~(IntOp.cmpi .eq x y) = IntOp.cmpi .ne x y := by
  show ~~~(BitVec.ofBool (x == y)) = BitVec.ofBool (!(x == y))
  cases (x == y) <;> rfl

/-- The conjunction of two bits, as a number, is the product of the two bits as numbers. -/
theorem uitofp_andi (a b : BitVec 1) :
    (FloatOps.uitofp (F := Ideal) .f32 (IntOp.andi a b) : R) = FloatOps.uitofp .f32 b * FloatOps.uitofp .f32 a := by
  show ((((IntOp.andi a b).toNat : ℝ)) : EReal) = (((b.toNat : ℝ)) : EReal) * (((a.toNat : ℝ)) : EReal)
  rcases BitVec.eq_zero_or_eq_one a with rfl | rfl <;> rcases BitVec.eq_zero_or_eq_one b with rfl | rfl <;>
    simp [IntOp.andi]

/-- Adding the zero word changes nothing. -/
theorem addi_zero (x : BitVec 32) : IntOp.addi x 0#32 = x := by
  unfold IntOp.addi; simp

/-! ## The row of a pair -/

/-- The row, in the tiled arrays, of the pair (anchor `j`, candidate `c`): `c * 512 + j`. -/
abbrev row (c j : Fin 512) : Fin 262144 := ⟨c.val * 512 + j.val, by omega⟩

/-- The tiled distances at row `(c, j)`, column `k`: the anchor's distance to `k`. -/
theorem v8_at (c j k : Fin 512) :
    val_main_v8 (F := Ideal) D (ix2 (row c j) k) = D (ix2 j k) := by
  rw [val_main_v8_apply, val_main_v7_apply, val_main_v6_apply]
  refine congrArg D (funext fun a => Fin.ext ?_)
  match a with
  | ⟨0, _⟩ =>
    show ((((0 * 512 + ((c.val * 512 + j.val) * 512 + k.val) / 512 % 512) * 1 + 0) * 512 + ((c.val * 512 + j.val) * 512 + k.val) % 512) / 512) = j.val
    omega
  | ⟨1, _⟩ =>
    show ((((0 * 512 + ((c.val * 512 + j.val) * 512 + k.val) / 512 % 512) * 1 + 0) * 512 + ((c.val * 512 + j.val) * 512 + k.val) % 512) % 512) = k.val
    omega

/-- The transposed distances, as a column, broadcast along the row `(c, j)`: the anchor's distance to the candidate. -/
theorem v14_at (c j k : Fin 512) :
    val_main_v14 (F := Ideal) D (ix2 (row c j) k) = D (ix2 j c) := by
  rw [val_main_v14_apply, val_main_v13_apply, val_main_v12_apply]
  refine congrArg D (funext fun a => Fin.ext ?_)
  match a with
  | ⟨0, _⟩ =>
    show ((c.val * 512 + j.val) * 1 + 0) % 512 = j.val
    omega
  | ⟨1, _⟩ =>
    show ((c.val * 512 + j.val) * 1 + 0) / 512 = c.val
    omega

/-- The label comparison at `(j, k)`. -/
theorem v4_at (j k : Fin 512) :
    val_main_v4 (F := Ideal) L (ix2 j k) = IntOp.cmpi .eq (L (ix1 j)) (L (ix1 k)) := by
  rw [val_main_v4_apply, val_main_v2_apply, val_main_v3_apply, val_main_v1_apply, val_main_v0_apply, val_main_v0_apply]
  refine congr (congrArg _ (congrArg L ?_)) (congrArg L ?_)
  · exact funext fun a => Fin.ext (by match a with | ⟨0, _⟩ => rfl)
  · exact funext fun a => Fin.ext (by match a with | ⟨0, _⟩ => rfl)

/-- Its complement at `(j, k)`: the labels differ. -/
theorem v5_at (j k : Fin 512) :
    val_main_v5 (F := Ideal) L (ix2 j k) = IntOp.cmpi .ne (L (ix1 j)) (L (ix1 k)) := by
  rw [val_main_v5_apply, v4_at, not_cmpi_eq]

/-- The tiled complement at row `(c, j)`, column `k`. -/
theorem v11_at (c j k : Fin 512) :
    val_main_v11 (F := Ideal) L (ix2 (row c j) k) = IntOp.cmpi .ne (L (ix1 j)) (L (ix1 k)) := by
  rw [val_main_v11_apply, val_main_v10_apply, val_main_v9_apply, ← v5_at]
  refine congrArg (val_main_v5 (F := Ideal) L) (funext fun a => Fin.ext ?_)
  match a with
  | ⟨0, _⟩ =>
    show ((((0 * 512 + ((c.val * 512 + j.val) * 512 + k.val) / 512 % 512) * 1 + 0) * 512 + ((c.val * 512 + j.val) * 512 + k.val) % 512) / 512) = j.val
    omega
  | ⟨1, _⟩ =>
    show ((((0 * 512 + ((c.val * 512 + j.val) * 512 + k.val) / 512 % 512) * 1 + 0) * 512 + ((c.val * 512 + j.val) * 512 + k.val) % 512) % 512) = k.val
    omega

/-- The mask bit at row `(c, j)`, column `k`. -/
theorem v16_at (c j k : Fin 512) :
    val_main_v16 (F := Ideal) D L (ix2 (row c j) k)
      = IntOp.andi (IntOp.cmpi .ne (L (ix1 j)) (L (ix1 k))) (FloatOps.cmpf (F := Ideal) (φ := .f32) .ogt (D (ix2 j k)) (D (ix2 j c))) := by
  rw [val_main_v16_apply, v11_at, val_main_v15_apply, v8_at, v14_at]

/-- The mask as a number at row `(c, j)`, column `k`. -/
theorem v17_at (c j k : Fin 512) :
    val_main_v17 (F := Ideal) D L (ix2 (row c j) k)
      = mask (fun k => D (ix2 j k)) (L (ix1 j)) (fun k => L (ix1 k)) c k := by
  rw [val_main_v17_apply, v16_at, uitofp_andi]
  rfl

/-- The same conversion, made a second time by the program. -/
theorem v25_at (c j k : Fin 512) :
    val_main_v25 (F := Ideal) D L (ix2 (row c j) k)
      = mask (fun k => D (ix2 j k)) (L (ix1 j)) (fun k => L (ix1 k)) c k := by
  rw [val_main_v25_apply, v16_at, uitofp_andi]
  rfl

/-- The mask's sum along row `(c, j)`. -/
theorem v18_at (c j : Fin 512) :
    val_main_v18 (F := Ideal) D L (ix1 (row c j))
      = ∑ k : Fin 512, mask (fun k => D (ix2 j k)) (L (ix1 j)) (fun k => L (ix1 k)) c k := by
  rw [val_main_v18_apply, val_main_cst_apply]
  show Ideal.ofBits .f32 0x00000000#32 + _ = _
  rw [Ideal.ofBits_zero_f32, zero_add]
  refine Finset.sum_congr rfl fun k _ => ?_
  rw [← v17_at D L c j k]
  exact congrArg (val_main_v17 (F := Ideal) D L) (funext fun a => Fin.ext (by match a with | ⟨0, _⟩ => rfl | ⟨1, _⟩ => rfl))

/-- Whether the mask of the pair holds a point, at row `(c, j)` of the column. -/
theorem v21_at (c j : Fin 512) (z : Fin 1) :
    val_main_v21 (F := Ideal) D L (ix2 (row c j) z)
      = hasOutside (fun k => D (ix2 j k)) (L (ix1 j)) (fun k => L (ix1 k)) c := by
  rw [val_main_v21_apply, val_main_v19_apply, val_main_v20_apply, val_main_cst_0_apply]
  unfold hasOutside
  rw [← v18_at D L c j]
  refine congrArg (fun x : R => FloatOps.cmpf .ogt x (FloatOps.ofBits .f32 0x00000000#32 : R)) (congrArg (val_main_v18 (F := Ideal) D L) ?_)
  exact funext fun a => Fin.ext (by match a with | ⟨0, _⟩ => rfl)

/-- The same bit, reshaped to a square and transposed: at `(j, c)`. -/
theorem v23_at (j c : Fin 512) :
    val_main_v23 (F := Ideal) D L (ix2 j c)
      = hasOutside (fun k => D (ix2 j k)) (L (ix1 j)) (fun k => L (ix1 k)) c := by
  rw [val_main_v23_apply, val_main_v22_apply, ← v21_at D L c j 0]
  refine congrArg (val_main_v21 (F := Ideal) D L) (funext fun a => Fin.ext ?_)
  match a with
  | ⟨0, _⟩ =>
    show (c.val * 512 + j.val) / 1 = c.val * 512 + j.val
    omega
  | ⟨1, _⟩ => rfl

/-! ## The four row reductions, read as folds over the column coordinate -/

/-- A maximum along the rows of a tiled array, at row `n`. -/
theorem reduce_max_tiled (x : (⟨S262144x512, .f32⟩ : BufTy).Contents (Elt Ideal)) (init : (⟨S_, .f32⟩ : BufTy).Contents (Elt Ideal))
    (n : Fin 262144) :
    Host.reduce (FloatOps.maximumf (F := Ideal) (φ := .f32)) x init Facts₀.reducesTo_S262144x512_S262144_d1 Facts₀.h_S_ (ix1 n)
      = (Finset.univ : Finset (Fin 512)).fold max (init (Shape.Idx.first Facts₀.h_S_) : R) (fun k => x (ix2 n k)) := by
  refine (Host.reduce_eq_fold_single (FloatOps.maximumf (F := Ideal) (φ := .f32)) x init
    Facts₀.reducesTo_S262144x512_S262144_d1 (by decide) Facts₀.h_S_ (ix1 n)).trans ?_
  refine congrArg (fun g : Fin 512 → R => (Finset.univ : Finset (Fin 512)).fold max (init (Shape.Idx.first Facts₀.h_S_) : R) g) ?_
  exact funext fun k => congrArg x (funext fun a => Fin.ext (by match a with | ⟨0, _⟩ => rfl | ⟨1, _⟩ => rfl))

/-- A minimum along the rows of a tiled array, at row `n`. -/
theorem reduce_min_tiled (x : (⟨S262144x512, .f32⟩ : BufTy).Contents (Elt Ideal)) (init : (⟨S_, .f32⟩ : BufTy).Contents (Elt Ideal))
    (n : Fin 262144) :
    Host.reduce (FloatOps.minimumf (F := Ideal) (φ := .f32)) x init Facts₀.reducesTo_S262144x512_S262144_d1 Facts₀.h_S_ (ix1 n)
      = (Finset.univ : Finset (Fin 512)).fold min (init (Shape.Idx.first Facts₀.h_S_) : R) (fun k => x (ix2 n k)) := by
  refine (Host.reduce_eq_fold_single (FloatOps.minimumf (F := Ideal) (φ := .f32)) x init
    Facts₀.reducesTo_S262144x512_S262144_d1 (by decide) Facts₀.h_S_ (ix1 n)).trans ?_
  refine congrArg (fun g : Fin 512 → R => (Finset.univ : Finset (Fin 512)).fold min (init (Shape.Idx.first Facts₀.h_S_) : R) g) ?_
  exact funext fun k => congrArg x (funext fun a => Fin.ext (by match a with | ⟨0, _⟩ => rfl | ⟨1, _⟩ => rfl))

/-- A maximum along the rows of a square array, at row `j`. -/
theorem reduce_max_square (x : (⟨S512x512, .f32⟩ : BufTy).Contents (Elt Ideal)) (init : (⟨S_, .f32⟩ : BufTy).Contents (Elt Ideal))
    (j : Fin 512) :
    Host.reduce (FloatOps.maximumf (F := Ideal) (φ := .f32)) x init Facts₀.reducesTo_S512x512_S512_d1 Facts₀.h_S_ (ix1 j)
      = (Finset.univ : Finset (Fin 512)).fold max (init (Shape.Idx.first Facts₀.h_S_) : R) (fun k => x (ix2 j k)) := by
  refine (Host.reduce_eq_fold_single (FloatOps.maximumf (F := Ideal) (φ := .f32)) x init
    Facts₀.reducesTo_S512x512_S512_d1 (by decide) Facts₀.h_S_ (ix1 j)).trans ?_
  refine congrArg (fun g : Fin 512 → R => (Finset.univ : Finset (Fin 512)).fold max (init (Shape.Idx.first Facts₀.h_S_) : R) g) ?_
  exact funext fun k => congrArg x (funext fun a => Fin.ext (by match a with | ⟨0, _⟩ => rfl | ⟨1, _⟩ => rfl))

/-- A minimum along the rows of a square array, at row `j`. -/
theorem reduce_min_square (x : (⟨S512x512, .f32⟩ : BufTy).Contents (Elt Ideal)) (init : (⟨S_, .f32⟩ : BufTy).Contents (Elt Ideal))
    (j : Fin 512) :
    Host.reduce (FloatOps.minimumf (F := Ideal) (φ := .f32)) x init Facts₀.reducesTo_S512x512_S512_d1 Facts₀.h_S_ (ix1 j)
      = (Finset.univ : Finset (Fin 512)).fold min (init (Shape.Idx.first Facts₀.h_S_) : R) (fun k => x (ix2 j k)) := by
  refine (Host.reduce_eq_fold_single (FloatOps.minimumf (F := Ideal) (φ := .f32)) x init
    Facts₀.reducesTo_S512x512_S512_d1 (by decide) Facts₀.h_S_ (ix1 j)).trans ?_
  refine congrArg (fun g : Fin 512 → R => (Finset.univ : Finset (Fin 512)).fold min (init (Shape.Idx.first Facts₀.h_S_) : R) g) ?_
  exact funext fun k => congrArg x (funext fun a => Fin.ext (by match a with | ⟨0, _⟩ => rfl | ⟨1, _⟩ => rfl))

/-! ## The least farther distance -/

/-- The greatest entry of the anchor's row, at row `(c, j)`. -/
theorem v26_at (c j : Fin 512) :
    val_main_v26 (F := Ideal) D (ix1 (row c j)) = rowMax (fun k => D (ix2 j k)) := by
  unfold val_main_v26
  rw [reduce_max_tiled]
  unfold rowMax
  exact congrArg (fun g : Fin 512 → R => (Finset.univ : Finset (Fin 512)).fold max (FloatOps.ofBits .f32 0xFF800000#32 : R) g)
    (funext fun k => v8_at D c j k)

/-- The same, as a column. -/
theorem v27_at (c j : Fin 512) (z : Fin 1) :
    val_main_v27 (F := Ideal) D (ix2 (row c j) z) = rowMax (fun k => D (ix2 j k)) := by
  rw [val_main_v27_apply, ← v26_at D c j]
  exact congrArg (val_main_v26 (F := Ideal) D) (funext fun a => Fin.ext (by match a with | ⟨0, _⟩ => rfl))

/-- The same, broadcast along the row. -/
theorem v28_at (c j k : Fin 512) :
    val_main_v28 (F := Ideal) D (ix2 (row c j) k) = rowMax (fun k => D (ix2 j k)) := by
  rw [val_main_v28_apply, ← v27_at D c j 0]
  exact congrArg (val_main_v27 (F := Ideal) D) (funext fun a => Fin.ext (by match a with | ⟨0, _⟩ => rfl | ⟨1, _⟩ => rfl))

/-- The shifted distance times the mask, at row `(c, j)`, column `k`. -/
theorem v30_at (c j k : Fin 512) :
    val_main_v30 (F := Ideal) D L (ix2 (row c j) k)
      = (D (ix2 j k) - rowMax (fun k => D (ix2 j k))) * mask (fun k => D (ix2 j k)) (L (ix1 j)) (fun k => L (ix1 k)) c k := by
  rw [val_main_v30_apply, val_main_v29_apply, v8_at, v28_at, v25_at]
  rfl

/-- Its minimum along the row. -/
theorem v31_at (c j : Fin 512) :
    val_main_v31 (F := Ideal) D L (ix1 (row c j))
      = (Finset.univ : Finset (Fin 512)).fold min (FloatOps.ofBits .f32 0x7F800000#32 : R)
          (fun k => (D (ix2 j k) - rowMax (fun k => D (ix2 j k))) * mask (fun k => D (ix2 j k)) (L (ix1 j)) (fun k => L (ix1 k)) c k) := by
  unfold val_main_v31
  rw [reduce_min_tiled]
  exact congrArg (fun g : Fin 512 → R => (Finset.univ : Finset (Fin 512)).fold min (FloatOps.ofBits .f32 0x7F800000#32 : R) g)
    (funext fun k => v30_at D L c j k)

/-- Shifted back: the least farther distance of the pair, at row `(c, j)` of the column. -/
theorem v33_at (c j : Fin 512) (z : Fin 1) :
    val_main_v33 (F := Ideal) D L (ix2 (row c j) z)
      = outside (fun k => D (ix2 j k)) (L (ix1 j)) (fun k => L (ix1 k)) c := by
  rw [val_main_v33_apply, val_main_v32_apply, v27_at]
  unfold outside
  rw [← v31_at D L c j]
  refine congrArg (fun x : R => x + rowMax (fun k => D (ix2 j k))) (congrArg (val_main_v31 (F := Ideal) D L) ?_)
  exact funext fun a => Fin.ext (by match a with | ⟨0, _⟩ => rfl)

/-- The same, reshaped to a square and transposed: at `(j, c)`. -/
theorem v35_at (j c : Fin 512) :
    val_main_v35 (F := Ideal) D L (ix2 j c)
      = outside (fun k => D (ix2 j k)) (L (ix1 j)) (fun k => L (ix1 k)) c := by
  rw [val_main_v35_apply, val_main_v34_apply, ← v33_at D L c j 0]
  refine congrArg (val_main_v33 (F := Ideal) D L) (funext fun a => Fin.ext ?_)
  match a with
  | ⟨0, _⟩ =>
    show (c.val * 512 + j.val) / 1 = c.val * 512 + j.val
    omega
  | ⟨1, _⟩ => rfl

/-! ## The greatest distance to another label -/

/-- The least entry of row `j`. -/
theorem v36_at (j : Fin 512) :
    val_main_v36 (F := Ideal) D (ix1 j) = rowMin (fun k => D (ix2 j k)) := by
  unfold val_main_v36
  rw [reduce_min_square]
  rfl

/-- The same, as a column. -/
theorem v37_at (j : Fin 512) (z : Fin 1) :
    val_main_v37 (F := Ideal) D (ix2 j z) = rowMin (fun k => D (ix2 j k)) := by
  rw [val_main_v37_apply, ← v36_at D j]
  exact congrArg (val_main_v36 (F := Ideal) D) (funext fun a => Fin.ext (by match a with | ⟨0, _⟩ => rfl))

/-- The same, broadcast along the row. -/
theorem v38_at (j k : Fin 512) :
    val_main_v38 (F := Ideal) D (ix2 j k) = rowMin (fun k => D (ix2 j k)) := by
  rw [val_main_v38_apply, ← v37_at D j 0]
  exact congrArg (val_main_v37 (F := Ideal) D) (funext fun a => Fin.ext (by match a with | ⟨0, _⟩ => rfl | ⟨1, _⟩ => rfl))

/-- The shifted distance times "another label", at `(j, k)`. -/
theorem v40_at (j k : Fin 512) :
    val_main_v40 (F := Ideal) D L (ix2 j k)
      = (D (ix2 j k) - rowMin (fun k => D (ix2 j k))) * other (L (ix1 j)) (fun k => L (ix1 k)) k := by
  rw [val_main_v40_apply, val_main_v39_apply, v38_at, val_main_v24_apply, v5_at]
  rfl

/-- Its maximum along the row. -/
theorem v41_at (j : Fin 512) :
    val_main_v41 (F := Ideal) D L (ix1 j)
      = (Finset.univ : Finset (Fin 512)).fold max (FloatOps.ofBits .f32 0xFF800000#32 : R)
          (fun k => (D (ix2 j k) - rowMin (fun k => D (ix2 j k))) * other (L (ix1 j)) (fun k => L (ix1 k)) k) := by
  unfold val_main_v41
  rw [reduce_max_square]
  exact congrArg (fun g : Fin 512 → R => (Finset.univ : Finset (Fin 512)).fold max (FloatOps.ofBits .f32 0xFF800000#32 : R) g)
    (funext fun k => v40_at D L j k)

/-- Shifted back: the greatest distance from anchor `j` to another label, as a column. -/
theorem v43_at (j : Fin 512) (z : Fin 1) :
    val_main_v43 (F := Ideal) D L (ix2 j z) = inside (fun k => D (ix2 j k)) (L (ix1 j)) (fun k => L (ix1 k)) := by
  rw [val_main_v43_apply, val_main_v42_apply, v37_at]
  unfold inside
  rw [← v41_at D L j]
  refine congrArg (fun x : R => x + rowMin (fun k => D (ix2 j k))) (congrArg (val_main_v41 (F := Ideal) D L) ?_)
  exact funext fun a => Fin.ext (by match a with | ⟨0, _⟩ => rfl)

/-- The same, repeated along row `j`: at `(j, c)`. -/
theorem v46_at (j c : Fin 512) :
    val_main_v46 (F := Ideal) D L (ix2 j c) = inside (fun k => D (ix2 j k)) (L (ix1 j)) (fun k => L (ix1 k)) := by
  rw [val_main_v46_apply, val_main_v45_apply, val_main_v44_apply, ← v43_at D L j 0]
  refine congrArg (val_main_v43 (F := Ideal) D L) (funext fun a => Fin.ext ?_)
  match a with
  | ⟨0, _⟩ =>
    show ((((0 * 512 + (j.val * 512 + c.val) / 512 % 512) * 1 + 0) * 1 + 0) / 1) = j.val
    omega
  | ⟨1, _⟩ => rfl

/-! ## The hinge terms and the loss -/

/-- The semi-hard negative's distance at `(j, c)`. -/
theorem v47_at (j c : Fin 512) :
    val_main_v47 (F := Ideal) D L (ix2 j c) = semiHard (fun k => D (ix2 j k)) (L (ix1 j)) (fun k => L (ix1 k)) c := by
  rw [val_main_v47_apply, v23_at, v35_at, v46_at]
  rfl

/-- The margin plus the pair's distance less the semi-hard negative's, at `(j, c)`. -/
theorem v50_at (j c : Fin 512) :
    val_main_v50 (F := Ideal) D L (ix2 j c)
      = (FloatOps.ofBits .f32 0x3F800000#32 : R) + D (ix2 j c) - semiHard (fun k => D (ix2 j k)) (L (ix1 j)) (fun k => L (ix1 k)) c := by
  rw [val_main_v50_apply, val_main_v49_apply, val_main_v48_apply, val_main_cst_5_apply, v47_at]
  rfl

/-- One label off the diagonal, at `(j, c)`. -/
theorem v58_at (j c : Fin 512) :
    val_main_v58 (F := Ideal) L (ix2 j c) = positive (L (ix1 j)) (fun k => L (ix1 k)) j.val c := by
  rw [val_main_v58_apply, val_main_v51_apply, v4_at, val_main_v57_apply, val_main_v56_apply, val_main_v55_apply,
    val_main_v52_apply, val_main_v53_apply, val_main_v54_apply, val_main_c_apply, addi_zero]
  rfl

/-- The hinge term of the pair, at `(j, c)`. -/
theorem v63_at (j c : Fin 512) :
    val_main_v63 (F := Ideal) D L (ix2 j c)
      = hinge (fun k => D (ix2 j k)) (L (ix1 j)) (fun k => L (ix1 k)) j.val c := by
  rw [val_main_v63_apply, val_main_v61_apply, v50_at, v58_at, val_main_v62_apply, val_main_cst_8_apply]
  rfl

/-- The sum of all hinge terms. -/
theorem v64_at (i : S_.Idx) :
    val_main_v64 (F := Ideal) D L i
      = ∑ j : Fin 512, rowHinge (fun j k => D (ix2 j k)) (fun k => L (ix1 k)) j := by
  rw [val_main_v64_apply, val_main_cst_9_apply]
  show Ideal.ofBits .f32 0x00000000#32 + _ = _
  rw [Ideal.ofBits_zero_f32, zero_add, sum_idx2]
  exact Finset.sum_congr rfl fun j _ => Finset.sum_congr rfl fun c _ => v63_at D L j c

/-- The number of positive pairs. -/
theorem v59_at (i : S_.Idx) :
    val_main_v59 (F := Ideal) L i = ∑ j : Fin 512, rowPositive (fun k => L (ix1 k)) j := by
  rw [val_main_v59_apply, val_main_cst_6_apply]
  show Ideal.ofBits .f32 0x00000000#32 + _ = _
  rw [Ideal.ofBits_zero_f32, zero_add, sum_idx2]
  exact Finset.sum_congr rfl fun j _ => Finset.sum_congr rfl fun c _ => v58_at L j c

/-- THE REFERENCE IS THE LOSS: its result is the sum of the hinge terms over the number of positive pairs, at least 1. -/
theorem loss_eq (D : (⟨S512x512, .f32⟩ : BufTy).Contents (Elt Ideal)) (L : (⟨S512, .i32⟩ : BufTy).Contents (Elt Ideal)) (i : S_.Idx) :
    Cert.ReferenceIdeal.Read.val_main_v65 (F := Ideal) D L i
      = Cert.Triplet.loss (fun j k => D (ValueIdx.ix2 j k)) (fun k => L (ValueIdx.ix1 k)) := by
  rw [val_main_v65_apply, v64_at, val_main_v60_apply, v59_at, val_main_cst_7_apply]
  rfl

end Cert.Triplet.Ref

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.LibLayout3.lean ====
/-
  Rank-3 layout operations read at an index given by coordinates.

  A shape cast keeps the row-major position of an element, and a broadcast reads coordinate 0 on each unit
  axis of its operand. The lemmas below spell this out, for indices written by their coordinates, in the cases
  an outer product of two row blocks flattened for a matrix product needs:
  * inserting a unit axis in the middle, `[a, c] → [a, 1, c]`;
  * flattening the two leading axes, `[a, b, c] → [a * b, c]` (row `i * b + k` is the pair `(i, k)`), and back;
  * stretching a unit axis, `[a, 1, c] → [a, b, c]`, `[1, b, c] → [a, b, c]`, `[1, 1, c] → [a, b, c]`.
-/
import Idealize.ShloMosaic.Lib.Pipeline.Value
import Idealize.ShloMosaic.Lib.ValueIdx

namespace Cert.Layout3

open Idealize.ShloMosaic Idealize.ShloMosaic.ValueIdx

variable {α : Type}

/-! ## Shape casts -/

/-- An `[a, c]` array cast to `[a, 1, c]` reads, at `(i, u, j)`, the operand at `(i, j)`: both have row-major
    position `i * c + j`, the unit coordinate `u` being `0`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b, c]` array cast to `[m, c]` reads, at `(r, j)` with `r = i * b + k`, the operand at `(i, k, j)`: both have
    row-major position `(i * b + k) * c + j`. -/
theorem shapeCast_abc_mc_apply {a b c m : ℕ} (x : (⟨3, ![a, b, c]⟩ : Shape).Idx → α)
    (h : (⟨3, ![a, b, c]⟩ : Shape).ShapeCasts ⟨2, ![m, c]⟩) (r : Fin m) (j : Fin c) (i : Fin a) (k : Fin b)
    (hr : r.val = i.val * b + k.val) :
    shapeCast ⟨2, ![m, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[m, c]` array cast to `[a, b, c]` reads, at `(i, k, j)`, the operand at `(r, j)` with `r = i * b + k`. -/
theorem shapeCast_mc_abc_apply {a b c m : ℕ} (x : (⟨2, ![m, c]⟩ : Shape).Idx → α)
    (h : (⟨2, ![m, c]⟩ : Shape).ShapeCasts ⟨3, ![a, b, c]⟩) (i : Fin a) (k : Fin b) (j : Fin c) (r : Fin m)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-! ## Broadcasts along unit axes -/

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A `[1, 1, c]` array broadcast to `[a, b, c]` reads, at `(i, k, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ v h (ix3 i k j) = v (ix3 (0 : Fin 1) (0 : Fin 1) j) := by
  refine broadcastTo_apply v h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

end Cert.Layout3
-- ==== Proof.LibRowReduceColumn.lean ====
/-
  A reduction along the rows of an [a, b] array, kept as a column [a, 1] (what `keepdims=True` leaves), read at an
  index at the ideal instance: the row's sum is the sum over the row's `b` entries, and the row's maximum taken from
  −∞ (and once more against −∞, as a softmax spells it) is the fold of `max` over them. Any sizes.
-/
import Idealize.ShloMosaic.PureOps.Ideal.Laws
import Idealize.ShloMosaic.Lib.ValueLayout
import proofs.«119727_j61426622267462_1_alg».proof.Proof.LibKeepdimsColumn

noncomputable section

open scoped BigOperators

namespace Cert.Lib.RowReduceColumn

open Idealize.ShloMosaic Idealize.ShloMosaic.ValueIdx

/-- The reduced index `p` of an [a, b] array reduced along its rows, with column `d` put back, is (p, d). -/
theorem lift_row {a b : ℕ} (h : (⟨2, ![a, b]⟩ : Shape).Reduces [1] (⟨1, ![a]⟩ : Shape)) (p : Fin a)
    (d : Fin ((⟨2, ![a, b]⟩ : Shape).size 1)) : h.lift (ix1 p) d = ix2 p (⟨d.val, d.isLt⟩ : Fin b) := by
  funext c; apply Fin.ext
  fin_cases c <;> rfl

/-- A row sum kept as a column, read at (p, u): the sum of row `p`'s entries. -/
theorem rowSum_column_apply {a b : ℕ} (v : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ d : Fin b, v (ix2 p d) :=
  (Cert.LibKeepdims.shapeCast_a_a1_apply _ hc p u).trans
    ((Ideal.multiReduction_add_single v _ h hφ hacc (ix1 p)).trans
      (Finset.sum_congr rfl fun d _ => congrArg v (lift_row h p d)))

/-- A row maximum from −∞, taken once more against −∞ and kept as a column, read at (p, u): the fold of `max` over
    row `p`'s entries. -/
theorem rowMax_column_apply {a b : ℕ} (v : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (maximumf (broadcast ⟨1, ![a]⟩ (Scalar.ofBits (F := Ideal) .f32 0xFF800000#32))
        (multiReduction .maximumf [1] ⟨1, ![a]⟩ v 0xFF800000#32 h hφ hacc)) hc (ix2 p u)
      = max (Ideal.ofBits .f32 0xFF800000#32)
          ((Finset.univ : Finset (Fin b)).fold max (Ideal.ofBits .f32 0xFF800000#32) (fun k => v (ix2 p k))) :=
  (Cert.LibKeepdims.shapeCast_a_a1_apply _ hc p u).trans
    (congrArg (max (Ideal.ofBits .f32 0xFF800000#32))
      ((Ideal.multiReduction_maximumf_single v _ h hφ hacc (ix1 p)).trans
        (congrArg (fun f => (Finset.univ : Finset (Fin b)).fold max (Ideal.ofBits .f32 0xFF800000#32) f)
          (funext fun k => congrArg v (lift_row h p k)))))

end Cert.Lib.RowReduceColumn

end
-- ==== Proof.LibTrailingUnit.lean ====
/-
  A trailing unit axis, read at an index given by coordinates.

  A shape cast keeps the row-major position of an element, and a broadcast reads coordinate 0 on each unit axis of its
  operand. So an `[a, b]` array cast to `[a, b, 1]` reads, at `(i, j, u)`, the operand at `(i, j)` (both sit at position
  `i * b + j`, the unit coordinate being 0), and an `[a, b, 1]` array stretched to `[a, b, c]` reads, at `(i, j, k)`, the
  operand at `(i, j, 0)`: each entry repeated along the new last axis. (What `x[:, :, None]` against `x[:, None, :]` needs
  of an outer comparison of a row with itself.)
-/
import Idealize.ShloMosaic.Lib.Pipeline.Value
import Idealize.ShloMosaic.Lib.ValueIdx

namespace Cert.Lib.TrailingUnit

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.Lib.TrailingUnit
-- ==== Proof.KernelBlock.lean ====
/-
  One block of the kernel, read at an index on the extended reals.

  At a grid point the body sees eight rows of the distance matrix (`x0`, [8, 512]), their labels (`x1`, a column [8, 1])
  and the labels of all columns (`x2`, a row [1, 512]). Its arithmetic is a chain of pure terms over these; each is read
  here at an index given by coordinates: the label masks, the row extrema kept as columns, the rank-3 comparison
  `d[r, k] > d[r, c]` laid out by unit axes and broadcasts, the reductions along the last axis, and at the end the two
  [1, 1] sums added to the accumulators. A bit widened to a word and converted signed is the bit converted unsigned, a
  reduction over one axis is a sum or a fold of max / min over that axis's coordinates, and a broadcast reads coordinate
  0 of a unit axis: with these every term is the specification's, row by row.
-/
import proofs.«119727_j61426622267462_1_alg».proof.Proof.Gen.KernelIdeal.Skeleton
import proofs.«119727_j61426622267462_1_alg».proof.Proof.Spec
import proofs.«119727_j61426622267462_1_alg».proof.Proof.LibColumnBroadcast
import proofs.«119727_j61426622267462_1_alg».proof.Proof.LibKeepdimsColumn
import proofs.«119727_j61426622267462_1_alg».proof.Proof.LibLayout3
import proofs.«119727_j61426622267462_1_alg».proof.Proof.LibRowReduceColumn
import proofs.«119727_j61426622267462_1_alg».proof.Proof.LibTrailingUnit
import Idealize.ShloMosaic.Lib.KernelVsHost
import Idealize.ShloMosaic.Lib.ValueLayout
import Idealize.ShloMosaic.Lib.Pipeline.Value
import Idealize.ShloMosaic.PureOps.Ideal.Laws

noncomputable section

open scoped BigOperators

namespace Cert.Triplet.Kern

open Idealize.ShloMosaic Idealize.ShloMosaic.ValueIdx Cert.KernelIdeal Cert.KernelIdeal.Gen Cert.Triplet

/-- Row `rr` of a block of distances. -/
abbrev row (x0 : FVec Ideal S8x512 .f32) (rr : Fin 8) : Fin 512 → R := fun k => x0 (ix2 rr k)
/-- The labels of all columns. -/
abbrev labels (x2 : IVec S1x512 32) : Fin 512 → BitVec 32 := fun k => x2 (ix2 (0 : Fin 1) k)
/-- The label of row `rr` of the block. -/
abbrev label (x1 : IVec S8x1 32) (rr : Fin 8) : BitVec 32 := x1 (ix2 rr (0 : Fin 1))

theorem pay6_apply (x1 : IVec S8x1 32) (x2 : IVec S1x512 32) (rr : Fin 8) (k : Fin 512) :
    k0_pay6 (F := Ideal) x1 x2 (ix2 rr k) = other (label x1 rr) (labels x2) k := by
  unfold k0_pay6 k0_pay4 k0_pay5
  refine (congrFun (sitofp_extui_eq_uitofp _ _) (ix2 rr k)).trans ?_
  show FloatOps.uitofp .f32 (IntOp.cmpi .ne (broadcastTo S8x512 (shapeCast S8x1 x1 shapeCasts_S8x1_S8x1) broadcasts_S8x1_S8x512 (ix2 rr k))
    (broadcastTo S8x512 (shapeCast S1x512 x2 shapeCasts_S1x512_S1x512) broadcasts_S1x512_S8x512 (ix2 rr k))) = _
  rw [shapeCast_self, shapeCast_self, broadcastTo_a1_ab_apply, broadcastTo_1b_ab_apply]
  rfl

theorem pay7_apply (x1 : IVec S8x1 32) (x2 : IVec S1x512 32) (rr : Fin 8) (c : Fin 512) :
    k0_pay7 (F := Ideal) x1 x2 (ix2 rr c) = FloatOps.uitofp .f32 (IntOp.cmpi .eq (label x1 rr) (labels x2 c)) := by
  unfold k0_pay7 k0_pay4 k0_pay5
  refine (congrFun (sitofp_extui_eq_uitofp _ _) (ix2 rr c)).trans ?_
  show FloatOps.uitofp .f32 (IntOp.cmpi .eq (broadcastTo S8x512 (shapeCast S8x1 x1 shapeCasts_S8x1_S8x1) broadcasts_S8x1_S8x512 (ix2 rr c))
    (broadcastTo S8x512 (shapeCast S1x512 x2 shapeCasts_S1x512_S1x512) broadcasts_S1x512_S8x512 (ix2 rr c))) = _
  rw [shapeCast_self, shapeCast_self, broadcastTo_a1_ab_apply, broadcastTo_1b_ab_apply]

/-! ## Reductions along a row, at the ideal instance -/

/-- A `minimumf` reduction over one axis is the fold of `min` from the accumulator over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The reduced index (p, c) of an [a, b, n] array reduced along its last axis, with coordinate `k` put back, is (p, c, k). -/
theorem lift_last {a b n : ℕ} (h : (⟨3, ![a, b, n]⟩ : Shape).Reduces [2] (⟨2, ![a, b]⟩ : Shape)) (p : Fin a) (c : Fin b)
    (k : Fin ((⟨3, ![a, b, n]⟩ : Shape).size 2)) : h.lift (ix2 p c) k = ix3 p c (⟨k.val, k.isLt⟩ : Fin n) := by
  funext d; apply Fin.ext
  fin_cases d <;> rfl

/-- The row maximum kept as a column. -/
theorem pay8_apply (x0 : FVec Ideal S8x512 .f32) (rr : Fin 8) (u : Fin 1) :
    k0_pay8 (F := Ideal) x0 (ix2 rr u) = rowMax (row x0 rr) := by
  unfold k0_pay8
  refine (Cert.LibKeepdims.shapeCast_a_a1_apply _ shapeCasts_S8_S8x1 rr u).trans ?_
  refine (Ideal.multiReduction_maximumf_single x0 _ reduces_S8x512_S8 _ _ (ix1 rr)).trans ?_
  exact congrArg (fun f => (Finset.univ : Finset (Fin 512)).fold max (FloatOps.ofBits .f32 0xFF800000#32) f)
    (funext fun k => congrArg x0 (Cert.Lib.RowReduceColumn.lift_row reduces_S8x512_S8 rr k))

/-- The row minimum kept as a column (the first three lines of the inside payload). -/
theorem rowMin_column (x0 : FVec Ideal S8x512 .f32) (rr : Fin 8) (u : Fin 1) :
    shapeCast S8x1 (multiReduction .minimumf [1] S8 x0 0x7F800000#32 reduces_S8x512_S8 (.inl rfl) rfl) shapeCasts_S8_S8x1 (ix2 rr u)
      = rowMin (row x0 rr) := by
  refine (Cert.LibKeepdims.shapeCast_a_a1_apply _ shapeCasts_S8_S8x1 rr u).trans ?_
  refine (multiReduction_minimumf_single x0 _ reduces_S8x512_S8 _ _ (ix1 rr)).trans ?_
  exact congrArg (fun f => (Finset.univ : Finset (Fin 512)).fold min (FloatOps.ofBits .f32 0x7F800000#32) f)
    (funext fun k => congrArg x0 (Cert.Lib.RowReduceColumn.lift_row reduces_S8x512_S8 rr k))

/-- The maximum of each row of any [8, 512] array, from -∞, kept as a column. -/
theorem rowMax_column (v : FVec Ideal S8x512 .f32) (rr : Fin 8) (u : Fin 1) :
    shapeCast S8x1 (multiReduction .maximumf [1] S8 v 0xFF800000#32 reduces_S8x512_S8 (.inl rfl) rfl) shapeCasts_S8_S8x1 (ix2 rr u)
      = (Finset.univ : Finset (Fin 512)).fold max (FloatOps.ofBits .f32 0xFF800000#32) (fun k => v (ix2 rr k)) := by
  refine (Cert.LibKeepdims.shapeCast_a_a1_apply _ shapeCasts_S8_S8x1 rr u).trans ?_
  refine (Ideal.multiReduction_maximumf_single v _ reduces_S8x512_S8 _ _ (ix1 rr)).trans ?_
  exact congrArg (fun f => (Finset.univ : Finset (Fin 512)).fold max (FloatOps.ofBits .f32 0xFF800000#32) f)
    (funext fun k => congrArg v (Cert.Lib.RowReduceColumn.lift_row reduces_S8x512_S8 rr k))

/-- The greatest distance to another label, kept as a column. -/
theorem pay9_apply (x0 : FVec Ideal S8x512 .f32) (x1 : IVec S8x1 32) (x2 : IVec S1x512 32) (rr : Fin 8) (u : Fin 1) :
    k0_pay9 (F := Ideal) x0 x1 x2 (ix2 rr u) = inside (row x0 rr) (label x1 rr) (labels x2) := by
  unfold k0_pay9
  dsimp only
  rw [addf_apply, rowMax_column, rowMin_column]
  unfold inside
  refine congrArg (· + rowMin (row x0 rr)) (congrArg (fun f => (Finset.univ : Finset (Fin 512)).fold max (FloatOps.ofBits .f32 0xFF800000#32) f) (funext fun k => ?_))
  rw [mulf_apply, subf_apply, broadcastTo_a1_ab_apply, rowMin_column, pay6_apply]

/-- A sum along the last axis of an [8, 512, 512] array. -/
theorem lastSum (v : FVec Ideal S8x512x512 .f32) (rr : Fin 8) (c : Fin 512) :
    multiReduction .add [2] S8x512 v 0x00000000#32 reduces_S8x512x512_S8x512 (.inl rfl) rfl (ix2 rr c)
      = ∑ k : Fin 512, v (ix3 rr c k) :=
  (Ideal.multiReduction_add_single v _ reduces_S8x512x512_S8x512 _ _ (ix2 rr c)).trans
    (Finset.sum_congr rfl fun k _ => congrArg v (lift_last reduces_S8x512x512_S8x512 rr c k))

/-- A minimum along the last axis of an [8, 512, 512] array, from +∞. -/
theorem lastMin (v : FVec Ideal S8x512x512 .f32) (rr : Fin 8) (c : Fin 512) :
    multiReduction .minimumf [2] S8x512 v 0x7F800000#32 reduces_S8x512x512_S8x512 (.inl rfl) rfl (ix2 rr c)
      = (Finset.univ : Finset (Fin 512)).fold min (FloatOps.ofBits .f32 0x7F800000#32) (fun k => v (ix3 rr c k)) :=
  (multiReduction_minimumf_single v _ reduces_S8x512x512_S8x512 _ _ (ix2 rr c)).trans
    (congrArg (fun f => (Finset.univ : Finset (Fin 512)).fold min (FloatOps.ofBits .f32 0x7F800000#32) f)
      (funext fun k => congrArg v (lift_last reduces_S8x512x512_S8x512 rr c k)))

/-- The centred distances, laid along the last axis. -/
theorem pay12_apply (x0 : FVec Ideal S8x512 .f32) (rr : Fin 8) (c k : Fin 512) :
    k0_pay12 (F := Ideal) x0 (ix3 rr c k) = row x0 rr k - rowMax (row x0 rr) := by
  unfold k0_pay12
  rw [Cert.Layout3.broadcastTo_a1c_abc_apply, Cert.Layout3.shapeCast_ac_a1c_apply, subf_apply, broadcastTo_a1_ab_apply, pay8_apply]

/-- The mask of column `c` at `k`. -/
theorem pay10_apply (x0 : FVec Ideal S8x512 .f32) (x1 : IVec S8x1 32) (x2 : IVec S1x512 32) (rr : Fin 8) (c k : Fin 512) :
    k0_pay10 (F := Ideal) x0 x1 x2 (ix3 rr c k) = mask (row x0 rr) (label x1 rr) (labels x2) c k := by
  unfold k0_pay10
  rw [mulf_apply]
  refine congrArg₂ (· * ·) ?_ ?_
  · refine (congrFun (sitofp_extui_eq_uitofp _ _) (ix3 rr c k)).trans ?_
    show FloatOps.uitofp .f32 (FloatOps.cmpf .ogt
      (broadcastTo S8x512x512 (shapeCast S8x1x512 x0 shapeCasts_S8x512_S8x1x512) broadcasts_S8x1x512_S8x512x512 (ix3 rr c k))
      (broadcastTo S8x512x512 (shapeCast S8x512x1 x0 shapeCasts_S8x512_S8x512x1) broadcasts_S8x512x1_S8x512x512 (ix3 rr c k))) = _
    rw [Cert.Layout3.broadcastTo_a1c_abc_apply, Cert.Layout3.shapeCast_ac_a1c_apply,
      Cert.Lib.TrailingUnit.broadcastTo_ab1_abc_apply, Cert.Lib.TrailingUnit.shapeCast_ab_ab1_apply]
  · rw [Cert.Layout3.broadcastTo_a1c_abc_apply, Cert.Layout3.shapeCast_ac_a1c_apply, pay6_apply]

/-- Whether the mask of column `c` holds a point. -/
theorem pay11_apply (x0 : FVec Ideal S8x512 .f32) (x1 : IVec S8x1 32) (x2 : IVec S1x512 32) (rr : Fin 8) (c : Fin 512) :
    k0_pay11 (F := Ideal) x0 x1 x2 (ix2 rr c) = hasOutside (row x0 rr) (label x1 rr) (labels x2) c := by
  unfold k0_pay11
  dsimp only
  rw [cmpf_apply, lastSum]
  unfold hasOutside
  refine congrArg₂ (FloatOps.cmpf .ogt) (Finset.sum_congr rfl fun k _ => pay10_apply x0 x1 x2 rr c k) rfl

/-! ## The sums over a block and the accumulators -/

/-- The sum down a column [8, 1], kept as [1, 1]. -/
theorem colSum (v : FVec Ideal S8x1 .f32) (i : S1x1.Idx) :
    shapeCast S1x1 (multiReduction .add [0] S1 v 0x00000000#32 reduces_S8x1_S1 (.inl rfl) rfl) shapeCasts_S1_S1x1 i
      = ∑ rr : Fin 8, v (ix2 rr (0 : Fin 1)) := by
  obtain ⟨a, b, rfl⟩ : ∃ (a b : Fin 1), i = ix2 a b := ⟨i 0, i 1, eq_ix2 i⟩
  refine (Cert.LibKeepdims.shapeCast_a_a1_apply _ shapeCasts_S1_S1x1 a b).trans ?_
  refine (Ideal.multiReduction_add_single v _ reduces_S8x1_S1 _ _ (ix1 a)).trans ?_
  refine Finset.sum_congr rfl fun rr _ => congrArg v ?_
  funext d; apply Fin.ext
  have ha : a.val = 0 := by omega
  fin_cases d
  · rfl
  · exact ha

/-- The sum along each row of an [8, 512] array, kept as a column. -/
theorem rowSum_column (v : FVec Ideal S8x512 .f32) (rr : Fin 8) (u : Fin 1) :
    shapeCast S8x1 (multiReduction .add [1] S8 v 0x00000000#32 reduces_S8x512_S8 (.inl rfl) rfl) shapeCasts_S8_S8x1 (ix2 rr u)
      = ∑ c : Fin 512, v (ix2 rr c) :=
  Cert.Lib.RowReduceColumn.rowSum_column_apply v reduces_S8x512_S8 _ _ shapeCasts_S8_S8x1 rr u

/-- The word of row `rr` of block `t`: `rr + t * 8` is the row number `t * 8 + rr`. -/
theorem word_row (t : ℕ) (ht : t < 64) (r : ℕ) (hr : r < 8) :
    IntOp.addi (BitVec.ofNat 32 (0 * 8 + r)) (Scalar.muli (BitVec.ofNat 32 t) 8#32) = BitVec.ofNat 32 (t * 8 + r) := by
  show BitVec.ofNat 32 (0 * 8 + r) + BitVec.ofNat 32 t * 8#32 = BitVec.ofNat 32 (t * 8 + r)
  apply BitVec.eq_of_toNat_eq
  simp only [BitVec.toNat_add, BitVec.toNat_mul, BitVec.toNat_ofNat]
  omega

/-- The positive-pair indicator of the block at grid position `t`: same label, off the diagonal. -/
theorem pay13_apply (t : ℕ) (ht : t < 64) (v17 : FVec Ideal S8x512 .f32) (rr : Fin 8) (c : Fin 512) :
    k0_pay13 (F := Ideal) (BitVec.ofNat 32 t) v17 (ix2 rr c)
      = v17 (ix2 rr c) - FloatOps.uitofp .f32 (IntOp.cmpi .eq (BitVec.ofNat 32 (t * 8 + rr.val)) (BitVec.ofNat 32 c.val)) := by
  unfold k0_pay13
  rw [subf_apply]
  refine congrArg (v17 (ix2 rr c) - ·) ?_
  refine (congrFun (sitofp_extui_eq_uitofp _ _) (ix2 rr c)).trans ?_
  show FloatOps.uitofp .f32 (IntOp.cmpi .eq (IntOp.addi (BitVec.ofNat 32 (0 * 8 + rr.val)) (Scalar.muli (BitVec.ofNat 32 t) 8#32))
    (BitVec.ofNat 32 (0 * 512 + c.val))) = _
  rw [word_row t ht rr.val rr.isLt, Nat.zero_mul, Nat.zero_add]

/-- The numerator's accumulator after a block: what it held plus the block's hinge terms. -/
theorem pay14_apply (arg0 : BitVec 32) (v3 v17 : FVec Ideal S8x512 .f32) (v19 v27 : FVec Ideal S8x1 .f32)
    (v37 v44 : FVec Ideal S8x512x512 .f32) (v40 : IVec S8x512 1) (v75 : FVec Ideal S1x1 .f32) (i : S1x1.Idx) :
    k0_pay14 (F := Ideal) arg0 v3 v17 v19 v27 v37 v40 v44 v75 i
      = v75 i + ∑ rr : Fin 8, ∑ c : Fin 512,
          max ((FloatOps.ofBits .f32 0x3F800000#32 + v3 (ix2 rr c)
              - Scalar.select (v40 (ix2 rr c))
                  ((Finset.univ : Finset (Fin 512)).fold min (FloatOps.ofBits .f32 0x7F800000#32)
                      (fun k => v44 (ix3 rr c k) * v37 (ix3 rr c k)) + v19 (ix2 rr (0 : Fin 1)))
                  (v27 (ix2 rr (0 : Fin 1))))
            * k0_pay13 arg0 v17 (ix2 rr c)) (FloatOps.ofBits .f32 0x00000000#32) := by
  unfold k0_pay14
  rw [shapeCast_self, addf_apply, colSum]
  refine congrArg (v75 i + ·) (Finset.sum_congr rfl fun rr _ => ?_)
  rw [rowSum_column]
  refine Finset.sum_congr rfl fun c _ => ?_
  rw [maximumf_apply, mulf_apply, subf_apply, addf_apply, select_apply, addf_apply, lastMin,
    broadcastTo_a1_ab_apply, broadcastTo_a1_ab_apply, shapeCast_self]
  rfl

/-- The denominator's accumulator after a block: what it held plus the block's positive pairs. -/
theorem pay15_apply (arg0 : BitVec 32) (v17 : FVec Ideal S8x512 .f32) (v80 : FVec Ideal S1x1 .f32) (i : S1x1.Idx) :
    k0_pay15 (F := Ideal) arg0 v17 v80 i = v80 i + ∑ rr : Fin 8, ∑ c : Fin 512, k0_pay13 arg0 v17 (ix2 rr c) := by
  unfold k0_pay15
  rw [shapeCast_self, addf_apply, colSum]
  refine congrArg (v80 i + ·) (Finset.sum_congr rfl fun rr _ => ?_)
  rw [rowSum_column]

/-! ## A block's contribution, in the specification's terms -/

/-- After the block at grid position `t`, the numerator's accumulator holds what it held plus the hinge terms of the
    block's eight rows (rows `t * 8 + rr` of the matrix). -/
theorem num_block (t : ℕ) (ht : t < 64) (x0 : FVec Ideal S8x512 .f32) (x1 : IVec S8x1 32) (x2 : IVec S1x512 32)
    (v75 : FVec Ideal S1x1 .f32) (i : S1x1.Idx) :
    k0_pay14 (F := Ideal) (BitVec.ofNat 32 t) x0 (k0_pay7 x1 x2) (k0_pay8 x0) (k0_pay9 x0 x1 x2) (k0_pay10 x0 x1 x2)
        (k0_pay11 (F := Ideal) x0 x1 x2) (k0_pay12 x0) v75 i
      = v75 i + ∑ rr : Fin 8, ∑ c : Fin 512, hinge (row x0 rr) (label x1 rr) (labels x2) (t * 8 + rr.val) c := by
  rw [pay14_apply]
  refine congrArg (v75 i + ·) (Finset.sum_congr rfl fun rr _ => Finset.sum_congr rfl fun c _ => ?_)
  rw [pay13_apply t ht, pay7_apply, pay8_apply, pay9_apply, pay11_apply]
  simp only [pay12_apply, pay10_apply]
  rfl

/-- After the block at grid position `t`, the denominator's accumulator holds what it held plus the number of the
    block's positive pairs. -/
theorem den_block (t : ℕ) (ht : t < 64) (x1 : IVec S8x1 32) (x2 : IVec S1x512 32) (v80 : FVec Ideal S1x1 .f32) (i : S1x1.Idx) :
    k0_pay15 (F := Ideal) (BitVec.ofNat 32 t) (k0_pay7 x1 x2) v80 i
      = v80 i + ∑ rr : Fin 8, ∑ c : Fin 512, positive (label x1 rr) (labels x2) (t * 8 + rr.val) c := by
  rw [pay15_apply]
  refine congrArg (v80 i + ·) (Finset.sum_congr rfl fun rr _ => Finset.sum_congr rfl fun c _ => ?_)
  rw [pay13_apply t ht, pay7_apply]
  rfl

/-- The zero either accumulator starts from. -/
theorem pay2_apply (i : S1x1.Idx) : k0_pay2 (F := Ideal) i = 0 := by
  unfold k0_pay2
  rw [shapeCast_self]
  exact Ideal.ofBits_zero_f32

theorem pay3_apply (i : S1x1.Idx) : k0_pay3 (F := Ideal) i = 0 := by
  unfold k0_pay3
  rw [shapeCast_self]
  exact Ideal.ofBits_zero_f32

/-- The output block: the numerator over the denominator raised to at least 1. -/
theorem pay1_apply (v88 v91 : FVec Ideal S1x1 .f32) (i : S1x1.Idx) :
    k0_pay1 (F := Ideal) v88 v91 i = Ideal.div (v91 i) (max (v88 i) (FloatOps.ofBits .f32 0x3F800000#32 : R)) := by
  unfold k0_pay1
  rfl

/-- The block at grid position `t` holds rows `t * 8 + rr` of the matrix `D`, with their labels: its hinge terms are
    those rows' hinge sums. -/
theorem block_hinge (D : Fin 512 → Fin 512 → R) (L : Fin 512 → BitVec 32) (t : ℕ) (ht : t < 64)
    (x0 : FVec Ideal S8x512 .f32) (x1 : IVec S8x1 32) (x2 : IVec S1x512 32)
    (h0 : ∀ (rr : Fin 8) (k : Fin 512), x0 (ix2 rr k) = D ⟨t * 8 + rr.val, by omega⟩ k)
    (h1 : ∀ rr : Fin 8, x1 (ix2 rr (0 : Fin 1)) = L ⟨t * 8 + rr.val, by omega⟩)
    (h2 : ∀ k : Fin 512, x2 (ix2 (0 : Fin 1) k) = L k) :
    ∑ rr : Fin 8, ∑ c : Fin 512, hinge (row x0 rr) (label x1 rr) (labels x2) (t * 8 + rr.val) c
      = ∑ rr : Fin 8, rowHinge D L ⟨t * 8 + rr.val, by omega⟩ := by
  refine Finset.sum_congr rfl fun rr _ => ?_
  have e0 : row x0 rr = D ⟨t * 8 + rr.val, by omega⟩ := funext (h0 rr)
  have e2 : labels x2 = L := funext h2
  rw [e0, e2, show label x1 rr = L ⟨t * 8 + rr.val, by omega⟩ from h1 rr]
  rfl

/-- And its positive pairs are those rows' positive pairs. -/
theorem block_positive (L : Fin 512 → BitVec 32) (t : ℕ) (ht : t < 64) (x1 : IVec S8x1 32) (x2 : IVec S1x512 32)
    (h1 : ∀ rr : Fin 8, x1 (ix2 rr (0 : Fin 1)) = L ⟨t * 8 + rr.val, by omega⟩)
    (h2 : ∀ k : Fin 512, x2 (ix2 (0 : Fin 1) k) = L k) :
    ∑ rr : Fin 8, ∑ c : Fin 512, positive (label x1 rr) (labels x2) (t * 8 + rr.val) c
      = ∑ rr : Fin 8, rowPositive L ⟨t * 8 + rr.val, by omega⟩ := by
  refine Finset.sum_congr rfl fun rr _ => ?_
  have e2 : labels x2 = L := funext h2
  rw [e2, show label x1 rr = L ⟨t * 8 + rr.val, by omega⟩ from h1 rr]
  rfl

end Cert.Triplet.Kern

end
-- ==== Proof.KernelPieces.lean ====
/-
  What one run of the kernel body leaves in the two accumulators and in the output block, as values.

  The body keeps two [1, 1] accumulators across the grid: the sum of the hinge terms and the number of positive pairs.
  At the first grid point it stores zero into both and then adds the block's sums; at the other points it adds the block's
  sums to what the accumulators hold; at the last point it moreover stores their quotient, the denominator raised to at
  least 1, into the output block. Each accumulator is written by one covering store (after the zero store at the first
  point), so what it holds afterwards is that store's payload, the loads reading the whole staging buffers.
-/
import proofs.«119727_j61426622267462_1_alg».proof.Proof.Gen.KernelIdeal.Frame
import Idealize.ShloMosaic.Lib.Pipeline.Value
import Idealize.ShloMosaic.Lib.Tactic

set_option maxRecDepth 16384

noncomputable section

namespace Cert.Triplet.Pieces

open Idealize.ShloMosaic Idealize.ShloMosaic.TcCoe Idealize.ShloMosaic.Tactic Idealize.SL Idealize.SL.Sem Cert.KernelIdeal Cert.KernelIdeal.Gen

variable {F : FTy → Type} [FloatOps F]

theorem hz : (![0, 0] : Fin 2 → Nat) = fun _ => 0 := funext fun a => by fin_cases a <;> rfl

/-- First point: the numerator's accumulator ends at zero plus the block's hinge terms. -/
theorem num_A (c : Dev nD) (i : grid0.Coords) (arg1 : Memref sig .tc .vmem S8x512 .f32) (harg1 : arg1.IsWhole) (arg2 : Memref sig .tc .vmem S8x1 .i32) (harg2 : arg2.IsWhole) (arg3 : Memref sig .tc .vmem S1x512 .i32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 : Vec F S8x512 .f32) (x1 : Vec F S8x1 .i32) (x2 : Vec F S1x512 .i32) :
    sout0_A_0 c i arg1 harg1 arg2 harg2 arg3 harg3 arg4 harg4 arg5 harg5 arg6 harg6 hc0 hc1 x0 x1 x2 = k0_pay14 (BitVec.ofNat 32 (i 0).val) x0 (k0_pay7 x1 x2) (k0_pay8 x0) (k0_pay9 x0 x1 x2) (k0_pay10 x0 x1 x2) (k0_pay11 x0 x1 x2) (k0_pay12 x0) (k0_pay2 (F := F)) := by
  unfold sout0_A_0
  rw [View.read_writes_eq_canon _ _ _ (scover0_A_0 c i arg1 harg1 arg2 harg2 arg3 harg3 arg4 harg4 arg5 harg5 arg6 harg6 hc0 hc1 x0 x1 x2)]
  unfold kernelRun0_A
  dsimp only
  sl_unfold_words
  rw [View.canon_cons_unit_zero (S := S1x1) hz]
  simp only [View.readCov_unit_zero (S := S1x1) _ hz, View.readAt_eq_ld, harg1.read_unread, harg2.read_unread, harg3.read_unread,
    harg4.read_unread, harg5.read_unread, harg6.read_unread,
    View.ld_unit_zero (S := S8x512) hz, View.ld_unit_zero (S := S8x1) hz, View.ld_unit_zero (S := S1x512) hz, View.ld_unit_zero (S := S1x1) hz]

/-- First point: the denominator's accumulator ends at zero plus the block's positive pairs. -/
theorem den_A (c : Dev nD) (i : grid0.Coords) (arg1 : Memref sig .tc .vmem S8x512 .f32) (harg1 : arg1.IsWhole) (arg2 : Memref sig .tc .vmem S8x1 .i32) (harg2 : arg2.IsWhole) (arg3 : Memref sig .tc .vmem S1x512 .i32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 : Vec F S8x512 .f32) (x1 : Vec F S8x1 .i32) (x2 : Vec F S1x512 .i32) :
    sout0_A_1 c i arg1 harg1 arg2 harg2 arg3 harg3 arg4 harg4 arg5 harg5 arg6 harg6 hc0 hc1 x0 x1 x2 = k0_pay15 (BitVec.ofNat 32 (i 0).val) (k0_pay7 x1 x2) (k0_pay3 (F := F)) := by
  unfold sout0_A_1
  rw [View.read_writes_eq_canon _ _ _ (scover0_A_1 c i arg1 harg1 arg2 harg2 arg3 harg3 arg4 harg4 arg5 harg5 arg6 harg6 hc0 hc1 x0 x1 x2)]
  unfold kernelRun0_A
  dsimp only
  sl_unfold_words
  rw [View.canon_cons_unit_zero (S := S1x1) hz]
  simp only [View.readCov_unit_zero (S := S1x1) _ hz, View.readAt_eq_ld, harg1.read_unread, harg2.read_unread, harg3.read_unread,
    harg4.read_unread, harg5.read_unread, harg6.read_unread,
    View.ld_unit_zero (S := S8x512) hz, View.ld_unit_zero (S := S8x1) hz, View.ld_unit_zero (S := S1x512) hz, View.ld_unit_zero (S := S1x1) hz]

/-- A middle point: the numerator's accumulator ends at what it held plus the block's hinge terms. -/
theorem num_B (c : Dev nD) (i : grid0.Coords) (arg1 : Memref sig .tc .vmem S8x512 .f32) (harg1 : arg1.IsWhole) (arg2 : Memref sig .tc .vmem S8x1 .i32) (harg2 : arg2.IsWhole) (arg3 : Memref sig .tc .vmem S1x512 .i32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 : Vec F S8x512 .f32) (x1 : Vec F S8x1 .i32) (x2 : Vec F S1x512 .i32) (xs0 xs1 : Vec F S1x1 .f32) :
    sout0_B_0 c i arg1 harg1 arg2 harg2 arg3 harg3 arg4 harg4 arg5 harg5 arg6 harg6 hc0 hc1 x0 x1 x2 xs0 xs1 = k0_pay14 (BitVec.ofNat 32 (i 0).val) x0 (k0_pay7 x1 x2) (k0_pay8 x0) (k0_pay9 x0 x1 x2) (k0_pay10 x0 x1 x2) (k0_pay11 x0 x1 x2) (k0_pay12 x0) xs0 := by
  unfold sout0_B_0
  rw [View.read_writes_eq_canon _ _ _ (scover0_B_0 c i arg1 harg1 arg2 harg2 arg3 harg3 arg4 harg4 arg5 harg5 arg6 harg6 hc0 hc1 x0 x1 x2 xs0 xs1)]
  unfold kernelRun0_B
  dsimp only
  sl_unfold_words
  rw [View.canon_unit_zero (S := S1x1) hz]
  simp only [View.readCov_unit_zero (S := S1x1) _ hz, View.readAt_eq_ld, harg1.read_unread, harg2.read_unread, harg3.read_unread,
    harg4.read_unread, harg5.read_unread, harg6.read_unread,
    View.ld_unit_zero (S := S8x512) hz, View.ld_unit_zero (S := S8x1) hz, View.ld_unit_zero (S := S1x512) hz, View.ld_unit_zero (S := S1x1) hz]

/-- A middle point: the denominator's accumulator ends at what it held plus the block's positive pairs. -/
theorem den_B (c : Dev nD) (i : grid0.Coords) (arg1 : Memref sig .tc .vmem S8x512 .f32) (harg1 : arg1.IsWhole) (arg2 : Memref sig .tc .vmem S8x1 .i32) (harg2 : arg2.IsWhole) (arg3 : Memref sig .tc .vmem S1x512 .i32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 : Vec F S8x512 .f32) (x1 : Vec F S8x1 .i32) (x2 : Vec F S1x512 .i32) (xs0 xs1 : Vec F S1x1 .f32) :
    sout0_B_1 c i arg1 harg1 arg2 harg2 arg3 harg3 arg4 harg4 arg5 harg5 arg6 harg6 hc0 hc1 x0 x1 x2 xs0 xs1 = k0_pay15 (BitVec.ofNat 32 (i 0).val) (k0_pay7 x1 x2) xs1 := by
  unfold sout0_B_1
  rw [View.read_writes_eq_canon _ _ _ (scover0_B_1 c i arg1 harg1 arg2 harg2 arg3 harg3 arg4 harg4 arg5 harg5 arg6 harg6 hc0 hc1 x0 x1 x2 xs0 xs1)]
  unfold kernelRun0_B
  dsimp only
  sl_unfold_words
  rw [View.canon_unit_zero (S := S1x1) hz]
  simp only [View.readCov_unit_zero (S := S1x1) _ hz, View.readAt_eq_ld, harg1.read_unread, harg2.read_unread, harg3.read_unread,
    harg4.read_unread, harg5.read_unread, harg6.read_unread,
    View.ld_unit_zero (S := S8x512) hz, View.ld_unit_zero (S := S8x1) hz, View.ld_unit_zero (S := S1x512) hz, View.ld_unit_zero (S := S1x1) hz]

/-- The last point: the numerator's accumulator, as at a middle point. -/
theorem num_C (c : Dev nD) (i : grid0.Coords) (arg1 : Memref sig .tc .vmem S8x512 .f32) (harg1 : arg1.IsWhole) (arg2 : Memref sig .tc .vmem S8x1 .i32) (harg2 : arg2.IsWhole) (arg3 : Memref sig .tc .vmem S1x512 .i32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S8x512 .f32) (x1 : Vec F S8x1 .i32) (x2 : Vec F S1x512 .i32) (xs0 xs1 : Vec F S1x1 .f32) :
    sout0_C_0 c i arg1 harg1 arg2 harg2 arg3 harg3 arg4 harg4 arg5 harg5 arg6 harg6 hc0 hc1 x0 x1 x2 xs0 xs1 = k0_pay14 (BitVec.ofNat 32 (i 0).val) x0 (k0_pay7 x1 x2) (k0_pay8 x0) (k0_pay9 x0 x1 x2) (k0_pay10 x0 x1 x2) (k0_pay11 x0 x1 x2) (k0_pay12 x0) xs0 := by
  unfold sout0_C_0
  rw [View.read_writes_eq_canon _ _ _ (scover0_C_0 c i arg1 harg1 arg2 harg2 arg3 harg3 arg4 harg4 arg5 harg5 arg6 harg6 hc0 hc1 x0 x1 x2 xs0 xs1)]
  unfold kernelRun0_C
  dsimp only
  sl_unfold_words
  rw [View.canon_unit_zero (S := S1x1) hz]
  simp only [View.readCov_unit_zero (S := S1x1) _ hz, View.readAt_eq_ld, harg1.read_unread, harg2.read_unread, harg3.read_unread,
    harg4.read_unread, harg5.read_unread, harg6.read_unread,
    View.ld_unit_zero (S := S8x512) hz, View.ld_unit_zero (S := S8x1) hz, View.ld_unit_zero (S := S1x512) hz, View.ld_unit_zero (S := S1x1) hz]

/-- The last point: the denominator's accumulator, as at a middle point. -/
theorem den_C (c : Dev nD) (i : grid0.Coords) (arg1 : Memref sig .tc .vmem S8x512 .f32) (harg1 : arg1.IsWhole) (arg2 : Memref sig .tc .vmem S8x1 .i32) (harg2 : arg2.IsWhole) (arg3 : Memref sig .tc .vmem S1x512 .i32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S8x512 .f32) (x1 : Vec F S8x1 .i32) (x2 : Vec F S1x512 .i32) (xs0 xs1 : Vec F S1x1 .f32) :
    sout0_C_1 c i arg1 harg1 arg2 harg2 arg3 harg3 arg4 harg4 arg5 harg5 arg6 harg6 hc0 hc1 x0 x1 x2 xs0 xs1 = k0_pay15 (BitVec.ofNat 32 (i 0).val) (k0_pay7 x1 x2) xs1 := by
  unfold sout0_C_1
  rw [View.read_writes_eq_canon _ _ _ (scover0_C_1 c i arg1 harg1 arg2 harg2 arg3 harg3 arg4 harg4 arg5 harg5 arg6 harg6 hc0 hc1 x0 x1 x2 xs0 xs1)]
  unfold kernelRun0_C
  dsimp only
  sl_unfold_words
  rw [View.canon_unit_zero (S := S1x1) hz]
  simp only [View.readCov_unit_zero (S := S1x1) _ hz, View.readAt_eq_ld, harg1.read_unread, harg2.read_unread, harg3.read_unread,
    harg4.read_unread, harg5.read_unread, harg6.read_unread,
    View.ld_unit_zero (S := S8x512) hz, View.ld_unit_zero (S := S8x1) hz, View.ld_unit_zero (S := S1x512) hz, View.ld_unit_zero (S := S1x1) hz]

/-- The last point: the output block ends at the quotient of the two accumulators as the point leaves them. -/
theorem out_C (c : Dev nD) (i : grid0.Coords) (arg1 : Memref sig .tc .vmem S8x512 .f32) (harg1 : arg1.IsWhole) (arg2 : Memref sig .tc .vmem S8x1 .i32) (harg2 : arg2.IsWhole) (arg3 : Memref sig .tc .vmem S1x512 .i32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S8x512 .f32) (x1 : Vec F S8x1 .i32) (x2 : Vec F S1x512 .i32) (xs0 xs1 : Vec F S1x1 .f32) :
    out0_C_3 c i arg1 harg1 arg2 harg2 arg3 harg3 arg4 harg4 arg5 harg5 arg6 harg6 hc0 hc1 x0 x1 x2 xs0 xs1 = k0_pay1 (k0_pay15 (BitVec.ofNat 32 (i 0).val) (k0_pay7 x1 x2) xs1) (k0_pay14 (BitVec.ofNat 32 (i 0).val) x0 (k0_pay7 x1 x2) (k0_pay8 x0) (k0_pay9 x0 x1 x2) (k0_pay10 x0 x1 x2) (k0_pay11 x0 x1 x2) (k0_pay12 x0) xs0) := by
  unfold out0_C_3
  rw [View.read_writes_eq_canon _ _ _ (cover0_C_3 c i arg1 harg1 arg2 harg2 arg3 harg3 arg4 harg4 arg5 harg5 arg6 harg6 hc0 hc1 x0 x1 x2 xs0 xs1)]
  unfold kernelRun0_C
  dsimp only
  sl_unfold_words
  rw [View.canon_unit_zero (S := S1x1) hz]
  simp only [View.readCov_unit_zero (S := S1x1) _ hz, View.readAt_eq_ld, harg1.read_unread, harg2.read_unread, harg3.read_unread,
    harg4.read_unread, harg5.read_unread, harg6.read_unread,
    View.ld_unit_zero (S := S8x512) hz, View.ld_unit_zero (S := S8x1) hz, View.ld_unit_zero (S := S1x512) hz, View.ld_unit_zero (S := S1x1) hz]

end Cert.Triplet.Pieces

end
-- ==== Proof.LibSumRuns.lean ====
/-
  A sum of `m · n` terms taken in order is the sum of its `m` consecutive runs of `n` terms: term `s · n + r` is the
  `r`-th term of run `s`. (What joins a contraction taken whole with the same contraction taken tile by tile.)
-/
import Mathlib.Algebra.BigOperators.Fin
import Mathlib.Logic.Equiv.Fin.Basic

open scoped BigOperators

namespace Cert.Lib.SumRuns

/-- Term `r` of run `s` is below `m · n`. -/
theorem run_lt {m n : ℕ} (s : Fin m) (r : Fin n) : s.val * n + r.val < m * n := by
  have h1 : (s.val + 1) * n ≤ m * n := Nat.mul_le_mul_right n s.isLt
  have h2 : r.val < n := r.isLt
  rw [Nat.succ_mul] at h1
  omega

/-- A sum over `Fin (m * n)` is the double sum over the runs `s : Fin m` and the places `r : Fin n` in a run, the term at
    `s · n + r`. -/
theorem sum_runs {M : Type*} [AddCommMonoid M] (m n : ℕ) (g : Fin (m * n) → M) :
    ∑ k : Fin (m * n), g k = ∑ s : Fin m, ∑ r : Fin n, g ⟨s.val * n + r.val, run_lt s r⟩ := by
  rw [← Equiv.sum_comp (finProdFinEquiv (m := m) (n := n)) g, Fintype.sum_prod_type]
  refine Finset.sum_congr rfl fun s _ => Finset.sum_congr rfl fun r _ => congrArg g (Fin.ext ?_)
  show r.val + n * s.val = s.val * n + r.val
  rw [Nat.mul_comm, Nat.add_comm]

end Cert.Lib.SumRuns
-- ==== Proof.KernelArrays.lean ====
/-
  What the kernel's three input windows hold at each grid point, and what the program returns, in terms of the two
  arguments as launched.

  The grid has 64 points. At point `t`
  * window 0 stages rows `8 t … 8 t + 7` of the 512 × 512 distance matrix (a block's coordinate in the array is always
    the block's index times the block's extent plus the coordinate inside the block);
  * window 1 stages entries `8 t … 8 t + 7` of the labels reshaped to a 512 × 1 column;
  * window 2 stages the labels reshaped to a 1 × 512 row, whole, at every point.
  The column and the row are written by two reshapes before the grid runs; a reshape keeps the row-major position, so the
  column at `(r, 0)` and the row at `(0, k)` are labels `r` and `k`. No operation before the grid writes either argument.
  After the grid one reshape takes the kernel's 1 × 1 output array to a scalar: its one entry.
-/
import proofs.«119727_j61426622267462_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.Triplet.Arrays

open Idealize.ShloMosaic Idealize.ShloMosaic.TcCoe Idealize.ShloMosaic.ValueIdx Idealize.SL.Sem Cert.KernelIdeal Cert.KernelIdeal.Gen

variable {F : FTy → Type} [FloatOps F] (m : (ℓ : Loc nD τ sig) → Buf (Elt F) ℓ)

/-- Where window 0's block sits at each grid point: row block `t`, the whole width. -/
theorem index0 : ∀ t : Fin cfg0.N, win0_0.index t 0 = t.val ∧ win0_0.index t 1 = 0 :=
  (by decide +kernel : ∀ t : Fin grid0.N, win0_0.index t 0 = t.val ∧ win0_0.index t 1 = 0)

/-- Window 0's block at point `t` is rows `8 t … 8 t + 7` of the distance matrix as launched. -/
theorem blk0 (c : Dev nD) (t : Fin cfg0.N) (rr : Fin 8) (k : Fin 512) :
    (iblk m c 0 t : Vec F S8x512 .f32) (ix2 rr k)
      = m ((c : Thread nD τ).loc main_arg0)
          (ix2 (⟨t.val * 8 + rr.val, by have := t.isLt; have : cfg0.N = 64 := N_0; omega⟩ : Fin 512) k) := by
  unfold iblk
  rw [View.read_apply]
  show V m c main_arg0 _ = _
  rw [V_main_arg0]
  congr 1
  funext a
  apply Fin.ext
  match a with
  | ⟨0, _⟩ =>
    show win0_0.index t 0 * 8 + 1 * rr.val = t.val * 8 + rr.val
    rw [(index0 t).1]; omega
  | ⟨1, _⟩ =>
    show win0_0.index t 1 * 512 + 1 * k.val = k.val
    rw [(index0 t).2]; omega

/-- Where window 1's block sits at each grid point: row block `t` of the label column. -/
theorem index1 : ∀ t : Fin cfg0.N, win0_1.index t 0 = t.val ∧ win0_1.index t 1 = 0 :=
  (by decide +kernel : ∀ t : Fin grid0.N, win0_1.index t 0 = t.val ∧ win0_1.index t 1 = 0)

/-- Where window 2's block sits at each grid point: the whole label row, at every point. -/
theorem index2 : ∀ t : Fin cfg0.N, win0_2.index t 0 = 0 ∧ win0_2.index t 1 = 0 :=
  (by decide +kernel : ∀ t : Fin grid0.N, win0_2.index t 0 = 0 ∧ win0_2.index t 1 = 0)

/-- The label column the region finds: the labels as launched, reshaped to a column. -/
theorem V_main_v0 (c : Dev nD) :
    (V m c main_v0 : S512x1.Idx → BitVec 32)
      = shapeCast S512x1 (m ((c : Thread nD τ).loc main_arg1)) Facts₀.shapeCasts_S512_S512x1 := by
  show StableHlo.after (List.flatten [hostOps0]) (fun b => m (c, b)) (Proc.devRef .tc main_v0) = _
  simp only [hostOps0, List.flatten_cons, List.flatten_nil, List.append_nil, List.cons_append, List.nil_append]
  after_results
  rfl

/-- The label row the region finds: the labels as launched, reshaped to a row. -/
theorem V_main_v1 (c : Dev nD) :
    (V m c main_v1 : S1x512.Idx → BitVec 32)
      = shapeCast S1x512 (m ((c : Thread nD τ).loc main_arg1)) Facts₀.shapeCasts_S512_S1x512 := by
  show StableHlo.after (List.flatten [hostOps0]) (fun b => m (c, b)) (Proc.devRef .tc main_v1) = _
  simp only [hostOps0, List.flatten_cons, List.flatten_nil, List.append_nil, List.cons_append, List.nil_append]
  after_results
  rfl

/-- The label column at row `r`: label `r`. -/
theorem V_main_v0_apply (c : Dev nD) (r : Fin 512) (z : Fin 1) :
    (V m c main_v0 : S512x1.Idx → BitVec 32) (ix2 r z) = m ((c : Thread nD τ).loc main_arg1) (ix1 r) := by
  rw [V_main_v0]
  refine shapeCast_apply _ Facts₀.shapeCasts_S512_S512x1 (ix2 r z) (ix1 r) ?_
  rw [Shape.rowMajor_val_one, Shape.rowMajor_val_two]
  have hz : z.val = 0 := by omega
  show r.val = r.val * 1 + z.val
  omega

/-- The label row at column `k`: label `k`. -/
theorem V_main_v1_apply (c : Dev nD) (z : Fin 1) (k : Fin 512) :
    (V m c main_v1 : S1x512.Idx → BitVec 32) (ix2 z k) = m ((c : Thread nD τ).loc main_arg1) (ix1 k) := by
  rw [V_main_v1]
  refine shapeCast_apply _ Facts₀.shapeCasts_S512_S1x512 (ix2 z k) (ix1 k) ?_
  rw [Shape.rowMajor_val_one, Shape.rowMajor_val_two]
  have hz : z.val = 0 := by omega
  show k.val = z.val * 512 + k.val
  omega

/-- Window 1's block at point `t` is labels `8 t … 8 t + 7` as launched, as a column. -/
theorem blk1 (c : Dev nD) (t : Fin cfg0.N) (rr : Fin 8) :
    (iblk m c 1 t : Vec F S8x1 .i32) (ix2 rr (0 : Fin 1))
      = m ((c : Thread nD τ).loc main_arg1)
          (ix1 (⟨t.val * 8 + rr.val, by have := t.isLt; have : cfg0.N = 64 := N_0; omega⟩ : Fin 512)) := by
  unfold iblk
  rw [View.read_apply]
  show V m c main_v0 _ = _
  refine Eq.trans ?_ (V_main_v0_apply m c ⟨t.val * 8 + rr.val, by have := t.isLt; have : cfg0.N = 64 := N_0; omega⟩ 0)
  congr 1
  funext a
  apply Fin.ext
  match a with
  | ⟨0, _⟩ =>
    show win0_1.index t 0 * 8 + 1 * rr.val = t.val * 8 + rr.val
    rw [(index1 t).1]; omega
  | ⟨1, _⟩ =>
    show win0_1.index t 1 * 1 + 1 * 0 = 0
    rw [(index1 t).2]

/-- Window 2's block at every point is all the labels as launched, as a row. -/
theorem blk2 (c : Dev nD) (t : Fin cfg0.N) (k : Fin 512) :
    (iblk m c 2 t : Vec F S1x512 .i32) (ix2 (0 : Fin 1) k) = m ((c : Thread nD τ).loc main_arg1) (ix1 k) := by
  unfold iblk
  rw [View.read_apply]
  show V m c main_v1 _ = _
  refine Eq.trans ?_ (V_main_v1_apply m c 0 k)
  congr 1
  funext a
  apply Fin.ext
  match a with
  | ⟨0, _⟩ =>
    show win0_2.index t 0 * 1 + 1 * 0 = 0
    rw [(index2 t).1]
  | ⟨1, _⟩ =>
    show win0_2.index t 1 * 512 + 1 * k.val = k.val
    rw [(index2 t).2]; omega

/-- The result the program returns: the kernel's 1×1 output array as the region leaves it, reshaped to a scalar. -/
theorem tail_v3_fun (c : Dev nD) :
    Pipeline.afterTail₀ cfgs (dats m) 0 (V0 m) [hostOps1] c main_v3
      = shapeCast S_ ((dats m 0 c).arrAt 3 cfg0.N) Facts₀.shapeCasts_S1x1_S_ := by
  unfold Pipeline.afterTail₀
  show StableHlo.after (List.flatten [hostOps1]) _ (Proc.devRef .tc main_v3) = _
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v2)
      = (dats m 0 c).arrAt 3 cfg0.N :=
    Pipeline.withArrays_arr spec0 launch0.win.arr_inj c _ _ 3
  rw [h]
  rfl

/-- At its one index: the output array's one entry. -/
theorem tail_v3 (c : Dev nD) (j : S_.Idx) :
    Pipeline.afterTail₀ cfgs (dats m) 0 (V0 m) [hostOps1] c main_v3 j
      = (dats m 0 c).arrAt 3 cfg0.N (ix2 (0 : Fin 1) (0 : Fin 1)) := by
  rw [tail_v3_fun]
  refine shapeCast_apply _ Facts₀.shapeCasts_S1x1_S_ j (ix2 (0 : Fin 1) (0 : Fin 1)) ?_
  rw [Shape.rowMajor_val_two]
  have hj : (S_.rowMajor j).val < 1 := (S_.rowMajor j).isLt
  show 0 * 1 + 0 = (S_.rowMajor j).val
  omega

end Cert.Triplet.Arrays

end
-- ==== Proof.KernelAccum.lean ====
/-
  The accumulation over the grid: what the two accumulators hold after each point, and the kernel's result.

  The grid has 64 points; point `t` sees rows `t * 8 … t * 8 + 7` of the distance matrix with their labels, and the labels
  of all columns. By the case values of one run of the body, the numerator's accumulator after point `t` is what it held
  before plus the hinge terms of those eight rows, starting from zero at the first point; likewise the denominator's with
  the positive pairs. By induction on the point the accumulators after point `n` are the sums over blocks `0 … n`, in the
  order the points add them; addition on the extended reals is commutative and associative, so after the last point they
  are the sums over all 512 rows (64 runs of 8 rows), and the last point's output block is their quotient: the loss.
-/
import proofs.«119727_j61426622267462_1_alg».proof.Proof.KernelBlock
import proofs.«119727_j61426622267462_1_alg».proof.Proof.KernelPieces
import proofs.«119727_j61426622267462_1_alg».proof.Proof.LibSumRuns
import proofs.«119727_j61426622267462_1_alg».proof.Proof.KernelArrays
import Idealize.ShloMosaic.Lib.Pipeline.Value

set_option maxRecDepth 16384

noncomputable section

open scoped BigOperators

namespace Cert.Triplet.Accum

open Idealize.ShloMosaic Idealize.ShloMosaic.TcCoe Idealize.ShloMosaic.ValueIdx Idealize.SL.Sem
open Cert.KernelIdeal Cert.KernelIdeal.Gen Cert.Triplet Cert.Triplet.Kern
open Idealize.ShloMosaic.Pipeline (Dat)

variable (m : (ℓ : Loc nD τ sig) → Buf (Elt Ideal) ℓ) (ρ : Dev nD → PrngReg)

/-- The distance matrix the program is launched with, by coordinates. -/
def Dm (c : Dev nD) : Fin 512 → Fin 512 → R :=
  fun j k => (m ((c : Thread nD τ).loc main_arg0) : FVec Ideal S512x512 .f32) (ix2 j k)
/-- The labels it is launched with. -/
def Lm (c : Dev nD) : Fin 512 → BitVec 32 :=
  fun k => (m ((c : Thread nD τ).loc main_arg1) : IVec S512 32) (ix1 k)

/-- The hinge terms of the eight rows of block `t` (nothing beyond the grid). -/
def numBlk (c : Dev nD) (t : ℕ) : R :=
  if h : t < 64 then ∑ rr : Fin 8, rowHinge (Dm m c) (Lm m c) ⟨t * 8 + rr.val, by omega⟩ else 0
/-- The positive pairs of the eight rows of block `t`. -/
def denBlk (c : Dev nD) (t : ℕ) : R :=
  if h : t < 64 then ∑ rr : Fin 8, rowPositive (Lm m c) ⟨t * 8 + rr.val, by omega⟩ else 0

/-- The grid's one coordinate is the point's number. -/
theorem coords_val : ∀ t : Fin cfg0.N, (grid0.coords t 0).val = t.val :=
  (by decide +kernel : ∀ t : Fin grid0.N, (grid0.coords t 0).val = t.val)

theorem lt64 (t : Fin cfg0.N) : t.val < 64 := lt_of_lt_of_eq t.isLt (show cfg0.N = 64 from N_0)

/-! ## One grid point -/

/-- At point `t` the numerator's accumulator gains the hinge terms of rows `t * 8 … t * 8 + 7`. -/
theorem num_step (c : Dev nD) (t : Fin cfg0.N) (xs0 : FVec Ideal S1x1 .f32) (i : S1x1.Idx) :
    k0_pay14 (F := Ideal) (BitVec.ofNat 32 (grid0.coords t 0).val) (iblk m c 0 t) (k0_pay7 (iblk m c 1 t) (iblk m c 2 t)) (k0_pay8 (iblk m c 0 t))
      (k0_pay9 (iblk m c 0 t) (iblk m c 1 t) (iblk m c 2 t)) (k0_pay10 (iblk m c 0 t) (iblk m c 1 t) (iblk m c 2 t)) (k0_pay11 (F := Ideal) (iblk m c 0 t) (iblk m c 1 t) (iblk m c 2 t)) (k0_pay12 (iblk m c 0 t)) xs0 i = xs0 i + numBlk m c t.val := by
  rw [coords_val t]
  refine (num_block t.val (lt64 t) (iblk m c 0 t) (iblk m c 1 t) (iblk m c 2 t) xs0 i).trans ?_
  refine congrArg (xs0 i + ·) ?_
  refine (block_hinge (Dm m c) (Lm m c) t.val (lt64 t) (iblk m c 0 t) (iblk m c 1 t) (iblk m c 2 t)
    (fun rr k => Arrays.blk0 m c t rr k) (fun rr => Arrays.blk1 m c t rr) (fun k => Arrays.blk2 m c t k)).trans ?_
  unfold numBlk
  rw [dif_pos (lt64 t)]

/-- At point `t` the denominator's accumulator gains the positive pairs of those rows. -/
theorem den_step (c : Dev nD) (t : Fin cfg0.N) (xs1 : FVec Ideal S1x1 .f32) (i : S1x1.Idx) :
    k0_pay15 (F := Ideal) (BitVec.ofNat 32 (grid0.coords t 0).val) (k0_pay7 (iblk m c 1 t) (iblk m c 2 t)) xs1 i = xs1 i + denBlk m c t.val := by
  rw [coords_val t]
  refine (den_block t.val (lt64 t) (iblk m c 1 t) (iblk m c 2 t) xs1 i).trans ?_
  refine congrArg (xs1 i + ·) ?_
  refine (block_positive (Lm m c) t.val (lt64 t) (iblk m c 1 t) (iblk m c 2 t)
    (fun rr => Arrays.blk1 m c t rr) (fun k => Arrays.blk2 m c t k)).trans ?_
  unfold denBlk
  rw [dif_pos (lt64 t)]

/-! ## The three cases of a point -/

/-- The first point: both accumulators end at their block's sums. -/
theorem step_A (c : Dev nD) (t : Fin cfg0.N) (h0 : t.val % 64 = 0) (h1 : ¬t.val % 64 = 63) :
    (outsAt0 m c t.val t.isLt).2.1 = (fun _ => numBlk m c t.val)
      ∧ (outsAt0 m c t.val t.isLt).2.2 = (fun _ => denBlk m c t.val) := by
  rw [outsAt0_A m c t h0 h1]
  dsimp only
  constructor
  · refine (Pieces.num_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)).trans ?_
    funext i
    refine (num_step m c t _ i).trans ?_
    rw [pay2_apply, zero_add]
  · refine (Pieces.den_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)).trans ?_
    funext i
    refine (den_step m c t _ i).trans ?_
    rw [pay3_apply, zero_add]

/-- A middle point: each accumulator ends at what the point before left plus its block's sums. -/
theorem step_B (c : Dev nD) (t : Fin cfg0.N) (h0 : ¬t.val % 64 = 0) (h1 : ¬t.val % 64 = 63) :
    (outsAt0 m c t.val t.isLt).2.1 = (fun i => (outsAt0 m c (t.val - 1) (Nat.lt_of_le_of_lt (Nat.sub_le _ _) t.isLt)).2.1 i + numBlk m c t.val)
      ∧ (outsAt0 m c t.val t.isLt).2.2 = (fun i => (outsAt0 m c (t.val - 1) (Nat.lt_of_le_of_lt (Nat.sub_le _ _) t.isLt)).2.2 i + denBlk m c t.val) := by
  rw [outsAt0_B m c t h0 h1]
  dsimp only
  constructor
  · refine (Pieces.num_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).trans ?_
    funext i
    exact num_step m c t _ i
  · refine (Pieces.den_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).trans ?_
    funext i
    exact den_step m c t _ i

/-- The last point: the accumulators as at a middle point, and the output block at their quotient. -/
theorem step_C (c : Dev nD) (t : Fin cfg0.N) (h0 : ¬t.val % 64 = 0) (h1 : t.val % 64 = 63) :
    (outsAt0 m c t.val t.isLt).2.1 = (fun i => (outsAt0 m c (t.val - 1) (Nat.lt_of_le_of_lt (Nat.sub_le _ _) t.isLt)).2.1 i + numBlk m c t.val)
      ∧ (outsAt0 m c t.val t.isLt).2.2 = (fun i => (outsAt0 m c (t.val - 1) (Nat.lt_of_le_of_lt (Nat.sub_le _ _) t.isLt)).2.2 i + denBlk m c t.val)
      ∧ (outsAt0 m c t.val t.isLt).1 = (fun i => Ideal.div ((outsAt0 m c (t.val - 1) (Nat.lt_of_le_of_lt (Nat.sub_le _ _) t.isLt)).2.1 i + numBlk m c t.val)
          (max ((outsAt0 m c (t.val - 1) (Nat.lt_of_le_of_lt (Nat.sub_le _ _) t.isLt)).2.2 i + denBlk m c t.val) (FloatOps.ofBits .f32 0x3F800000#32 : R))) := by
  rw [outsAt0_C m c t h0 h1]
  dsimp only
  refine ⟨?_, ?_, ?_⟩
  · refine (Pieces.num_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).trans ?_
    funext i
    exact num_step m c t _ i
  · refine (Pieces.den_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).trans ?_
    funext i
    exact den_step m c t _ i
  · refine (Pieces.out_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).trans ?_
    funext i
    rw [pay1_apply, num_step m c t _ i, den_step m c t _ i]

/-! ## The accumulators after each point -/

/-- The hinge terms of blocks `0 … n`. -/
def numUpTo (c : Dev nD) (n : ℕ) : R := ∑ t ∈ Finset.range (n + 1), numBlk m c t
/-- The positive pairs of blocks `0 … n`. -/
def denUpTo (c : Dev nD) (n : ℕ) : R := ∑ t ∈ Finset.range (n + 1), denBlk m c t

/-- After point `n` the two accumulators hold the sums over blocks `0 … n`: by induction on the point. -/
theorem acc_eq (c : Dev nD) : ∀ (n : ℕ) (h : n < cfg0.N),
    (outsAt0 m c n h).2.1 = (fun _ => numUpTo m c n) ∧ (outsAt0 m c n h).2.2 = (fun _ => denUpTo m c n)
  | 0, h => by
    have s := step_A m c ⟨0, h⟩ rfl (by show ¬(0 : ℕ) % 64 = 63; decide)
    refine ⟨s.1.trans (funext fun _ => ?_), s.2.trans (funext fun _ => ?_)⟩
    · show numBlk m c 0 = numUpTo m c 0
      unfold numUpTo; rw [Finset.sum_range_one]
    · show denBlk m c 0 = denUpTo m c 0
      unfold denUpTo; rw [Finset.sum_range_one]
  | n + 1, h => by
    have hN : cfg0.N = 64 := N_0
    have ih := acc_eq c n (Nat.lt_of_succ_lt h)
    have h0 : ¬(⟨n + 1, h⟩ : Fin cfg0.N).val % 64 = 0 := by dsimp only; omega
    have key : ((outsAt0 m c (n + 1) h).2.1 = fun i => (outsAt0 m c n (Nat.lt_of_succ_lt h)).2.1 i + numBlk m c (n + 1))
        ∧ ((outsAt0 m c (n + 1) h).2.2 = fun i => (outsAt0 m c n (Nat.lt_of_succ_lt h)).2.2 i + denBlk m c (n + 1)) := by
      by_cases h1 : (⟨n + 1, h⟩ : Fin cfg0.N).val % 64 = 63
      · have s := step_C m c ⟨n + 1, h⟩ h0 h1
        exact ⟨s.1, s.2.1⟩
      · exact step_B m c ⟨n + 1, h⟩ h0 h1
    refine ⟨key.1.trans (funext fun i => ?_), key.2.trans (funext fun i => ?_)⟩
    · rw [ih.1]; unfold numUpTo; rw [Finset.sum_range_succ _ (n + 1)]
    · rw [ih.2]; unfold denUpTo; rw [Finset.sum_range_succ _ (n + 1)]

/-- All 64 blocks together are all 512 rows. -/
theorem numUpTo_last (c : Dev nD) : numUpTo m c 63 = ∑ j : Fin 512, rowHinge (Dm m c) (Lm m c) j := by
  unfold numUpTo
  rw [Finset.sum_range]
  refine Eq.trans ?_ (Cert.Lib.SumRuns.sum_runs 64 8 (fun k : Fin (64 * 8) => rowHinge (Dm m c) (Lm m c) k)).symm
  refine Finset.sum_congr rfl fun t _ => ?_
  unfold numBlk
  rw [dif_pos t.isLt]

theorem denUpTo_last (c : Dev nD) : denUpTo m c 63 = ∑ j : Fin 512, rowPositive (Lm m c) j := by
  unfold denUpTo
  rw [Finset.sum_range]
  refine Eq.trans ?_ (Cert.Lib.SumRuns.sum_runs 64 8 (fun k : Fin (64 * 8) => rowPositive (Lm m c) k)).symm
  refine Finset.sum_congr rfl fun t _ => ?_
  unfold denBlk
  rw [dif_pos t.isLt]

/-- The last point of the grid. -/
abbrev tLast : Fin cfg0.N := ⟨63, by rw [show cfg0.N = 64 from N_0]; decide⟩

/-- What the kernel leaves in its output array: the loss, at its one index. -/
abbrev result (c : Dev nD) : Buf (Elt Ideal) ((c : Thread nD τ).loc main_v2) := fun _ => loss (Dm m c) (Lm m c)

/-- The last point leaves the loss in the output block. -/
theorem out_last (c : Dev nD) : (outsAt0 m c tLast.val tLast.isLt).1 = (fun _ => loss (Dm m c) (Lm m c)) := by
  have s := step_C m c tLast (by decide) rfl
  refine s.2.2.trans (funext fun i => ?_)
  have ih := acc_eq m c 62 (by rw [show cfg0.N = 64 from N_0]; decide)
  have e1 : (outsAt0 m c (tLast.val - 1) (Nat.lt_of_le_of_lt (Nat.sub_le _ _) tLast.isLt)).2.1 i + numBlk m c tLast.val = numUpTo m c 63 := by
    show (outsAt0 m c 62 _).2.1 i + numBlk m c 63 = numUpTo m c 63
    rw [ih.1]; unfold numUpTo; rw [Finset.sum_range_succ _ 63]
  have e2 : (outsAt0 m c (tLast.val - 1) (Nat.lt_of_le_of_lt (Nat.sub_le _ _) tLast.isLt)).2.2 i + denBlk m c tLast.val = denUpTo m c 63 := by
    show (outsAt0 m c 62 _).2.2 i + denBlk m c 63 = denUpTo m c 63
    rw [ih.2]; unfold denUpTo; rw [Finset.sum_range_succ _ 63]
  rw [e1, e2, numUpTo_last, denUpTo_last]
  rfl

end Cert.Triplet.Accum

end
-- ==== Proof.KernelRun.lean ====
/-
  The kernel's run read as a value: the output array, the reshape after the region, the arguments.

  Only the last grid point writes the [1, 1] output array back, and its block is the whole array, so the array ends at
  the last point's output block: the loss. The program's result is that array reshaped to a scalar, whose one element is
  the array's one element. The argument arrays are never written.
-/
import proofs.«119727_j61426622267462_1_alg».proof.Proof.KernelAccum
import Idealize.ShloMosaic.Lib.Pipeline.Value

set_option maxRecDepth 16384

noncomputable section

open scoped BigOperators

namespace Cert.Triplet.Accum

open Idealize.ShloMosaic Idealize.ShloMosaic.TcCoe Idealize.ShloMosaic.ValueIdx Idealize.SL.Sem
open Cert.KernelIdeal Cert.KernelIdeal.Gen Cert.Triplet Cert.Triplet.Kern
open Idealize.ShloMosaic.Pipeline (Dat)

variable (m : (ℓ : Loc nD τ sig) → Buf (Elt Ideal) ℓ) (ρ : Dev nD → PrngReg)

/-! ## The output array, the reshape after the region, and the run -/

/-- The one write-back, at the last point, writes the loss: block (0, 0) of the [1, 1] array is the array. -/
theorem flushed_eq (c : Dev nD) (t : Fin cfg0.N) (hf : (cfg0.win 3).flush t = true) :
    (dats m 0 c).flushed 3 t = ((cfg0.win 3).blk t).view.read (Elt Ideal) (result m c) := by
  have hN : cfg0.N = 64 := N_0
  have h63 : t.val = 63 := by have := (flush0_3 t).mp hf; have := t.isLt; omega
  obtain rfl : t = tLast := Fin.ext h63
  show (cfg0.win 3).cut (grid0.coords tLast) ((dats m 0 c).after 3 tLast) = _
  rw [after0_3, out_last]
  have hz' : (fun a => win0_3.index tLast a * main_v2.ty.shape.size a) = fun _ => 0 :=
    funext fun a => by fin_cases a <;> decide +kernel
  exact (Memref.read_access_unit_zero (Elt Ideal) main_v2 hz' (fun a => by rw [congrFun hz' a]; simp) (result m c)).symm

/-- So the output array ends holding the loss (the last point's block covers it). -/
theorem final (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v2).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 1 from by decide +kernel]; omega⟩

/-- The kernel's run, read: its result (the output array reshaped to a scalar) is the loss of the launched matrix and
    labels, and the arguments end unchanged. -/
theorem run : θ_run defs (onTc (τ := τ) (main (F := Ideal))) ⟨m, fun _ => 0, ρ⟩ fun r => ∀ c : Dev nD,
      r.2.mem ((c.tc : Thread nD τ).loc main_v3) = (fun _ => loss (Dm m c) (Lm m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨
      ((h c).2 main_v3 (Pipeline.mem_restRefs_of main_v3 (by decide) (by decide))).trans
        (funext fun j => (Arrays.tail_v3 m c j).trans (congrFun (final m c) _)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Triplet.Accum

end
-- ==== Proof.lean ====
/-
  The semi-hard triplet loss of a 512 × 512 distance matrix and 512 labels: a kernel that walks the matrix in 64 blocks of
  eight rows, accumulating the sum of the hinge terms and the number of positive pairs, against a reference that tiles the
  matrix over all (anchor, positive) pairs and sums once.

  On the extended reals both programs compute, for every pair (anchor j, positive c), the same hinge term
  max ((1 + D j c - semiHard j c) * positive j c) 0 (Proof/Spec.lean): the kernel row by row on its block (Proof/KernelBlock.lean),
  the reference on row c * 512 + j of its tiled arrays (Proof/RefStages.lean). They differ in the layout (unit axes and
  broadcasts against tile, reshape and transpose), in spelling a mask (a product of two converted bits against the converted
  conjunction; "different" against the complement of "equal"), and in the order of the two total sums: the kernel adds
  512 entries of a row, then the 8 rows of a block, then the 64 blocks from zero (Proof/KernelAccum.lean), the reference all
  262144 terms at once. Addition on the extended reals is commutative and associative and zero is neutral, so the sums
  agree whatever the entries; no finiteness is used. Each program then divides by the number of positive pairs raised
  to at least 1.

  The three frames: the kernel's, at the word level and idealized, are its generated frame runs; the reference has no
  kernel, and its frame is its run with the result dropped. The idealization rewrote nothing, so `preserves` is trivial.
-/
import proofs.«119727_j61426622267462_1_alg».proof.Defs
import proofs.«119727_j61426622267462_1_alg».proof.Proof.Gen.Kernel
import proofs.«119727_j61426622267462_1_alg».proof.Proof.Gen.Kernel.Skeleton
import proofs.«119727_j61426622267462_1_alg».proof.Proof.Gen.Kernel.Launch
import proofs.«119727_j61426622267462_1_alg».proof.Proof.Gen.Kernel.Points
import proofs.«119727_j61426622267462_1_alg».proof.Proof.Gen.Kernel.Frame
import proofs.«119727_j61426622267462_1_alg».proof.Proof.Gen.KernelIdeal
import proofs.«119727_j61426622267462_1_alg».proof.Proof.Gen.KernelIdeal.Skeleton
import proofs.«119727_j61426622267462_1_alg».proof.Proof.Gen.KernelIdeal.Launch
import proofs.«119727_j61426622267462_1_alg».proof.Proof.Gen.KernelIdeal.Points
import proofs.«119727_j61426622267462_1_alg».proof.Proof.Gen.KernelIdeal.Frame
import proofs.«119727_j61426622267462_1_alg».proof.Proof.Gen.ReferenceIdeal
import proofs.«119727_j61426622267462_1_alg».proof.Proof.Gen.Pre_finite_inputs
import proofs.«119727_j61426622267462_1_alg».proof.Proof.RefStages
import proofs.«119727_j61426622267462_1_alg».proof.Proof.KernelRun
import Idealize.ShloMosaic.Adequacy
import Idealize.ShloMosaic.Init

noncomputable section

namespace Cert.Proof

open Idealize.ShloMosaic Idealize.SL.Sem

/-- The word-level kernel runs and leaves its arguments unchanged: its generated frame run. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the matrix and the labels both programs end at the loss of that matrix and those labels:
    the kernel by its run read as a value, the reference by its run and its stages read at an index. -/
theorem algebraic : Cert.algebraic_KernelIdeal_ReferenceIdeal := by
  intro m ρ m' ρ' _ hagree
  refine ⟨fun c => (fun _ => Cert.Triplet.loss (Cert.Triplet.Accum.Dm m c) (Cert.Triplet.Accum.Lm m c)),
    Cert.Triplet.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq]
  funext i
  rw [Cert.Triplet.Ref.loss_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
